-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x1 : Shape := ⟨2, ![2097152, 1]⟩
abbrev S32x1 : Shape := ⟨2, ![32, 1]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S2097152x1 : S_.BroadcastsInDim S2097152x1 (![] : Fin 0 → Fin S2097152x1.rank)
  reducesTo_S2097152x1_S_d0_1 : S2097152x1.ReducesTo [0, 1] S_
  h_S_ : 0 < S_.numel
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S32 .f32) (main_arg8 : FVec F S32 .f32) (main_arg9 : FVec F S1x32 .f32) (main_arg10 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S32 .f32) (main_arg5 : FVec F S32x32 .f32) (main_arg6 : FVec F S32 .f32) (main_arg7 : FVec F S32 .f32) (main_arg8 : FVec F S32 .f32) (main_arg9 : FVec F S1x32 .f32) (main_arg10 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2097152x1 .f32) (main_arg1 : FVec F S32x1 .f32) (main_arg2 : FVec F S32 .f32) (main_arg3 : FVec F S32 .f32) (main_arg4 : FVec F S32 .f32) (main_arg5 : FVec F S32x32 .f32) (main_arg6 : FVec F S32 .f32) (main_arg7 : FVec F S32 .f32) (main_arg8 : FVec F S32 .f32) (main_arg9 : FVec F S1x32 .f32) (main_arg10 : FVec F S1 .f32) : IVec S_ 1 :=
  let main_v0 : FVec F S2097152x1 .f32 := Host.absf main_arg0
  let main_cst : FVec F S_ .f32 := constant S_ .f32 0x7F800000#32
  let main_v1 : FVec F S2097152x1 .f32 := broadcastInDim S2097152x1 ![] bcast_S_S2097152x1 main_cst
  let main_v2 : IVec S2097152x1 1 := cmpf .olt main_v0 main_v1
  let main_c : IVec S_ 1 := constantI S_ 1 1#1
  let main_v3 : IVec S_ 1 := (fun x v => Host.reduce IntOp.andi x v reducesTo_S2097152x1_S_d0_1 h_S_) main_v2 main_c
  let main_v4 : FVec F S32x1 .f32 := Host.absf main_arg1
  let main_cst_0 : FVec F S_ .f32 := constant S_ .f32 0x7F800000#32
  let main_v5 : FVec F S32x1 .f32 := broadcastInDim S32x1 ![] bcast_S_S32x1 main_cst_0
  let main_v6 : IVec S32x1 1 := cmpf .olt main_v4 main_v5
  let main_c_1 : IVec S_ 1 := constantI S_ 1 1#1
  let main_v7 : IVec S_ 1 := (fun x v => Host.reduce IntOp.andi x v reducesTo_S32x1_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_v13 main_v16
-- ==== Kernel.lean ====
abbrev S2097152x1 : Shape := ⟨2, ![2097152, 1]⟩
abbrev S32x1 : Shape := ⟨2, ![32, 1]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x2097152 : Shape := ⟨2, ![1, 2097152]⟩
abbrev S1x1 : Shape := ⟨2, ![1, 1]⟩
abbrev S1x16384 : Shape := ⟨2, ![1, 16384]⟩
abbrev S32x16384 : Shape := ⟨2, ![32, 16384]⟩
abbrev S16384 : Shape := ⟨1, ![16384]⟩

abbrev nBuf : Space → Nat
  | .hbm => 22
  | .vmem => 14
  | .smem => 0
  | _ => 0

abbrev bufTy : (tb : Table) → Fin (tcTables nBuf tb) → BufTy
  | .hbm, ⟨0, _⟩ => ⟨S2097152x1, .f32⟩
  | .hbm, ⟨1, _⟩ => ⟨S32x1, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x2097152, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S1x1, .f32⟩
  | .hbm, ⟨20, _⟩ => ⟨S1x2097152, .f32⟩
  | .hbm, ⟨21, _⟩ => ⟨S2097152x1, .f32⟩
  | .local _ .vmem, ⟨0, _⟩ => ⟨S1x16384, .f32⟩
  | .local _ .vmem, ⟨1, _⟩ => ⟨S1x16384, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S32x32, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S1x1, .f32⟩
  | .local _ .vmem, ⟨12, _⟩ => ⟨S1x16384, .f32⟩
  | .local _ .vmem, ⟨13, _⟩ => ⟨S1x16384, .f32⟩
  | _, _ => ⟨S2097152x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2097152x1_S1x2097152 : S2097152x1.ShapeCasts S1x2097152
  shapeCasts_S32_S32x1 : S32.ShapeCasts S32x1
  shapeCasts_S1x32_S32x1 : S1x32.ShapeCasts S32x1
  shapeCasts_S1_S1x1 : S1.ShapeCasts S1x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S32x1_S32x1_0_0 : ∀ a, (![0, 0] : Fin 2 → Nat) a + S32x1.size a ≤ S32x1.size a
  h_S32x1 : 0 < S32x1.numel
  broadcasts_S32x1_S32x16384 : S32x1.Broadcasts S32x16384
  broadcasts_S1x16384_S32x16384 : S1x16384.Broadcasts S32x16384
  shapeCasts_S32x1_S32x1 : S32x1.ShapeCasts S32x1
  reduces_S32x16384_S16384 : S32x16384.Reduces [0] S16384
  shapeCasts_S16384_S1x16384 : S16384.ShapeCasts S1x16384
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  shapeCasts_S1x2097152_S2097152x1 : S1x2097152.ShapeCasts S2097152x1
  dot_S32x32_S32x16384_S32x16384_1_0_0_1_n_n_wf : DotDims.WF S32x32 S32x16384 S32x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x2097152.size a
  hwx0_0 : ∀ i : grid0.Coords, EltTy.bits .f32 = 32 ∨ (Rect.block (s := S1x2097152) S1x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .f32 = 32 ∨ (Rect.block (s := S32x1) S32x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16384.size a ≤ S1x2097152.size a
  hwx0_11 : ∀ i : grid0.Coords, EltTy.bits .f32 = 32 ∨ (Rect.block (s := S1x2097152) S1x16384.size (cc0_transform_11 i) (hinb0_11 i)).WholeWords (EltTy.packing .f32)

variable [Facts₀]

def dot_S32x32_S32x16384_S32x16384_1_0_0_1_n_n : DotDims S32x32 S32x16384 S32x16384 where
  lhsContracting := [1]
  rhsContracting := [0]
  lhsNonContracting := [0]
  rhsNonContracting := [1]
  lhsBatch := []
  rhsBatch := []
  wf := dot_S32x32_S32x16384_S32x16384_1_0_0_1_n_n_wf

abbrev win0_0 : Pipeline.Window sig grid0 :=
  Pipeline.Window.ofSpec (Memref.whole main_v0) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x16384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2097152x1 : Shape := ⟨2, ![2097152, 1]⟩
abbrev S32x1 : Shape := ⟨2, ![32, 1]⟩
abbrev S32 : Shape := ⟨1, ![32]⟩
abbrev S32x32 : Shape := ⟨2, ![32, 32]⟩
abbrev S1x32 : Shape := ⟨2, ![1, 32]⟩
abbrev S1 : Shape := ⟨1, ![1]⟩
abbrev S2097152x32 : Shape := ⟨2, ![2097152, 32]⟩
abbrev S_ : Shape := ⟨0, ![]⟩
abbrev S2097152 : Shape := ⟨1, ![2097152]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S2097152x1, .f32⟩
  | .hbm, ⟨1, _⟩ => ⟨S32x1, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x32, .f32⟩
  | .hbm, ⟨12, _⟩ => ⟨S2097152x32, .f32⟩
  | .hbm, ⟨13, _⟩ => ⟨S1x32, .f32⟩
  | .hbm, ⟨14, _⟩ => ⟨S2097152x32, .f32⟩
  | .hbm, ⟨15, _⟩ => ⟨S2097152x32, .f32⟩
  | .hbm, ⟨16, _⟩ => ⟨S_, .f32⟩
  | .hbm, ⟨17, _⟩ => ⟨S2097152, .f32⟩
  | .hbm, ⟨18, _⟩ => ⟨S2097152x1, .f32⟩
  | .hbm, ⟨19, _⟩ => ⟨S_, .f32⟩
  | .hbm, ⟨20, _⟩ => ⟨S2097152x1, .f32⟩
  | .hbm, ⟨21, _⟩ => ⟨S2097152x1, .f32⟩
  | .hbm, ⟨22, _⟩ => ⟨S2097152x32, .f32⟩
  | .hbm, ⟨23, _⟩ => ⟨S2097152x32, .f32⟩
  | .hbm, ⟨24, _⟩ => ⟨S2097152x32, .f32⟩
  | .hbm, ⟨25, _⟩ => ⟨S_, .f32⟩
  | .hbm, ⟨26, _⟩ => ⟨S2097152, .f32⟩
  | .hbm, ⟨27, _⟩ => ⟨S2097152x1, .f32⟩
  | .hbm, ⟨28, _⟩ => ⟨S_, .f32⟩
  | .hbm, ⟨29, _⟩ => ⟨S2097152x1, .f32⟩
  | .hbm, ⟨30, _⟩ => ⟨S2097152x1, .f32⟩
  | .hbm, ⟨31, _⟩ => ⟨S2097152x32, .f32⟩
  | .hbm, ⟨32, _⟩ => ⟨S2097152x32, .f32⟩
  | .hbm, ⟨33, _⟩ => ⟨S_, .f32⟩
  | .hbm, ⟨34, _⟩ => ⟨S2097152x1, .f32⟩
  | .hbm, ⟨35, _⟩ => ⟨S2097152x1, .f32⟩
  | .hbm, ⟨36, _⟩ => ⟨S2097152x1, .f32⟩
  | .hbm, ⟨37, _⟩ => ⟨S2097152x32, .f32⟩
  | .hbm, ⟨38, _⟩ => ⟨S2097152x32, .f32⟩
  | .hbm, ⟨39, _⟩ => ⟨S1x32, .f32⟩
  | .hbm, ⟨40, _⟩ => ⟨S2097152x32, .f32⟩
  | .hbm, ⟨41, _⟩ => ⟨S2097152x32, .f32⟩
  | .hbm, ⟨42, _⟩ => ⟨S1x32, .f32⟩
  | .hbm, ⟨43, _⟩ => ⟨S2097152x32, .f32⟩
  | .hbm, ⟨44, _⟩ => ⟨S2097152x32, .f32⟩
  | .hbm, ⟨45, _⟩ => ⟨S2097152x32, .f32⟩
  | .hbm, ⟨46, _⟩ => ⟨S2097152x32, .f32⟩
  | .hbm, ⟨47, _⟩ => ⟨S_, .f32⟩
  | .hbm, ⟨48, _⟩ => ⟨S2097152x32, .f32⟩
  | .hbm, ⟨49, _⟩ => ⟨S2097152x32, .f32⟩
  | .hbm, ⟨50, _⟩ => ⟨S_, .f32⟩
  | .hbm, ⟨51, _⟩ => ⟨S2097152x32, .f32⟩
  | .hbm, ⟨52, _⟩ => ⟨S2097152x32, .f32⟩
  | .hbm, ⟨53, _⟩ => ⟨S2097152x32, .f32⟩
  | .hbm, ⟨54, _⟩ => ⟨S32x32, .f32⟩
  | .hbm, ⟨55, _⟩ => ⟨S2097152x32, .f32⟩
  | .hbm, ⟨56, _⟩ => ⟨S1x32, .f32⟩
  | .hbm, ⟨57, _⟩ => ⟨S2097152x32, .f32⟩
  | .hbm, ⟨58, _⟩ => ⟨S2097152x32, .f32⟩
  | .hbm, ⟨59, _⟩ => ⟨S_, .f32⟩
  | .hbm, ⟨60, _⟩ => ⟨S2097152, .f32⟩
  | .hbm, ⟨61, _⟩ => ⟨S2097152x1, .f32⟩
  | .hbm, ⟨62, _⟩ => ⟨S_, .f32⟩
  | .hbm, ⟨63, _⟩ => ⟨S2097152x1, .f32⟩
  | .hbm, ⟨64, _⟩ => ⟨S2097152x1, .f32⟩
  | .hbm, ⟨65, _⟩ => ⟨S2097152x32, .f32⟩
  | .hbm, ⟨66, _⟩ => ⟨S2097152x32, .f32⟩
  | .hbm, ⟨67, _⟩ => ⟨S2097152x32, .f32⟩
  | .hbm, ⟨68, _⟩ => ⟨S_, .f32⟩
  | .hbm, ⟨69, _⟩ => ⟨S2097152, .f32⟩
  | .hbm, ⟨70, _⟩ => ⟨S2097152x1, .f32⟩
  | .hbm, ⟨71, _⟩ => ⟨S_, .f32⟩
  | .hbm, ⟨72, _⟩ => ⟨S2097152x1, .f32⟩
  | .hbm, ⟨73, _⟩ => ⟨S2097152x1, .f32⟩
  | .hbm, ⟨74, _⟩ => ⟨S2097152x32, .f32⟩
  | .hbm, ⟨75, _⟩ => ⟨S2097152x32, .f32⟩
  | .hbm, ⟨76, _⟩ => ⟨S_, .f32⟩
  | .hbm, ⟨77, _⟩ => ⟨S2097152x1, .f32⟩
  | .hbm, ⟨78, _⟩ => ⟨S2097152x1, .f32⟩
  | .hbm, ⟨79, _⟩ => ⟨S2097152x1, .f32⟩
  | .hbm, ⟨80, _⟩ => ⟨S2097152x32, .f32⟩
  | .hbm, ⟨81, _⟩ => ⟨S2097152x32, .f32⟩
  | .hbm, ⟨82, _⟩ => ⟨S1x32, .f32⟩
  | .hbm, ⟨83, _⟩ => ⟨S2097152x32, .f32⟩
  | .hbm, ⟨84, _⟩ => ⟨S2097152x32, .f32⟩
  | .hbm, ⟨85, _⟩ => ⟨S1x32, .f32⟩
  | .hbm, ⟨86, _⟩ => ⟨S2097152x32, .f32⟩
  | .hbm, ⟨87, _⟩ => ⟨S2097152x32, .f32⟩
  | .hbm, ⟨88, _⟩ => ⟨S2097152x32, .f32⟩
  | .hbm, ⟨89, _⟩ => ⟨S2097152x32, .f32⟩
  | .hbm, ⟨90, _⟩ => ⟨S_, .f32⟩
  | .hbm, ⟨91, _⟩ => ⟨S2097152x32, .f32⟩
  | .hbm, ⟨92, _⟩ => ⟨S2097152x32, .f32⟩
  | .hbm, ⟨93, _⟩ => ⟨S_, .f32⟩
  | .hbm, ⟨94, _⟩ => ⟨S2097152x32, .f32⟩
  | .hbm, ⟨95, _⟩ => ⟨S2097152x32, .f32⟩
  | .hbm, ⟨96, _⟩ => ⟨S2097152x32, .f32⟩
  | .hbm, ⟨97, _⟩ => ⟨S32x1, .f32⟩
  | .hbm, ⟨98, _⟩ => ⟨S2097152x1, .f32⟩
  | .hbm, ⟨99, _⟩ => ⟨S1x1, .f32⟩
  | .hbm, ⟨100, _⟩ => ⟨S2097152x1, .f32⟩
  | .hbm, ⟨101, _⟩ => ⟨S2097152x1, .f32⟩
  | _, _ => ⟨S2097152x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  transposes_S32x1_S1x32_1_0 : S32x1.Transposes [1, 0] S1x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  reducesTo_S2097152x32_S2097152_d1 : S2097152x32.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x32_0_1 : S2097152x1.BroadcastsInDim S2097152x32 (![0, 1] : Fin 2 → Fin S2097152x32.rank)
  bcast_S_S2097152x32 : S_.BroadcastsInDim S2097152x32 (![] : Fin 0 → Fin S2097152x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  dot_S2097152x1_S1x32_S2097152x32_1_0_0_1_n_n_wf : DotDims.WF S2097152x1 S1x32 S2097152x32 [1] [0] [0] [1] [] []
  dot_S2097152x32_S32x32_S2097152x32_1_0_0_1_n_n_wf : DotDims.WF S2097152x32 S32x32 S2097152x32 [1] [0] [0] [1] [] []
  dot_S2097152x32_S32x1_S2097152x1_1_0_0_1_n_n_wf : DotDims.WF S2097152x32 S32x1 S2097152x1 [1] [0] [0] [1] [] []

variable [Facts₀]

def dot_S2097152x1_S1x32_S2097152x32_1_0_0_1_n_n : DotDims S2097152x1 S1x32 S2097152x32 where
  lhsContracting := [1]
  rhsContracting := [0]
  lhsNonContracting := [0]
  rhsNonContracting := [1]
  lhsBatch := []
  rhsBatch := []
  wf := dot_S2097152x1_S1x32_S2097152x32_1_0_0_1_n_n_wf
def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x1_S2097152x1_1_0_0_1_n_n : DotDims S2097152x32 S32x1 S2097152x1 where
  lhsContracting := [1]
  rhsContracting := [0]
  lhsNonContracting := [0]
  rhsNonContracting := [1]
  lhsBatch := []
  rhsBatch := []
  wf := dot_S2097152x32_S32x1_S2097152x1_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«178799_j71047349011134_2_alg».proof.Proof.LibRowLayers
import proofs.«178799_j71047349011134_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«178799_j71047349011134_2_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibNormAct.lean ====
/-
  A vector normalised, scaled, shifted and activated, over the extended reals — read off arrays that hold one vector per
  COLUMN and off arrays that hold one vector per ROW.

  For a vector `f` of `n` entries, a divisor `c` (the number of entries, as a program spells it), an offset `ε` and
  two vectors `g` and `be`:
   • `mean c f = (∑ k, f k) / c`;
   • `normed c ε f g be` centres `f` at its mean, multiplies by the reciprocal square root of (the mean of the squared
     centred entries, plus ε), then by `g` entry by entry, and adds `be`;
   • `silu y = y · σ(y)` with `σ(y) = 1 / (1 + e^(−y))`, and `normAct` is `silu` of `normed`, entry by entry.
  Two spellings of these on arrays are read here, for any extents:
   • COLUMN layout, an [n, b] array with one vector per column: the sum along the leading axis, viewed as a [1, b]
     row, divided by a splat scalar and broadcast back down the rows; `g` and `be` are [n, 1] columns broadcast along
     the second axis; σ is the one operation `logistic`;
   • ROW layout, an [a, n] array with one vector per row: the sum along the second axis given a unit trailing axis,
     divided by a broadcast rank-0 constant and broadcast back along the rows; `g` and `be` are [n] vectors given a
     unit leading axis and broadcast down the rows; σ is spelt `1 / (1 + exp (−y))` with the constant 1 as a word.
  Each is `normAct` of the column, respectively of the row. No finiteness is needed anywhere: the two spellings take
  the same sums, differences, products and quotients of the same extended reals in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«178799_j71047349011134_2_alg».proof.Proof.LibRowLayers
import proofs.«178799_j71047349011134_2_alg».proof.Proof.LibColumnBroadcast
import proofs.«178799_j71047349011134_2_alg».proof.Proof.LibChebRows
import proofs.«178799_j71047349011134_2_alg».proof.Proof.LibRowExtras

noncomputable section

namespace Cert.NormAct

open Idealize.ShloMosaic Idealize.ShloMosaic.ValueIdx Cert.RowLayers

/-! ## The functions of one vector -/

/-- The sum of the entries divided by `c`. -/
def mean {n : ℕ} (c : EReal) (f : Fin n → EReal) : EReal := Ideal.div (∑ k : Fin n, f k) c

/-- Centre at the mean, divide by the root of (variance + ε) — as a product with the reciprocal root —, scale by `g`,
    shift by `be`. -/
def normed {n : ℕ} (c ε : EReal) (f g be : Fin n → EReal) : Fin n → EReal := fun j =>
  (f j - mean c f) * Ideal.rsqrt (mean c (fun k => (f k - mean c f) * (f k - mean c f)) + ε) * g j + be j

/-- `y · σ(y)`. -/
def silu (y : EReal) : EReal := y * Ideal.logistic y

/-- The activated normalisation of a vector. -/
def normAct {n : ℕ} (c ε : EReal) (f g be : Fin n → EReal) : Fin n → EReal := fun j => silu (normed c ε f g be j)

/-- The f32 word of 1.0 denotes the extended real 1. -/
theorem ofBits_one_f32 : Ideal.ofBits .f32 0x3F800000#32 = 1 := by
  simp [Ideal.ofBits, Ideal.ieee, -EReal.coe_mul]; norm_num

/-! ## Column layout -/

section Columns
variable {n b : ℕ}

/-- Column `q` of an `[n, b]` array: the function `k ↦ v[k, q]`. -/
def colOf {α : Type} (v : (⟨2, ![n, b]⟩ : Shape).Idx → α) (q : Fin b) : Fin n → α := fun k => v (ix2 k q)

/-- The reduced index `q` with the leading coordinate `k` put back is `(k, q)`. -/
theorem lift_lead (h : (⟨2, ![n, b]⟩ : Shape).Reduces [0] (⟨1, ![b]⟩ : Shape)) (q : Fin b)
    (k : Fin ((⟨2, ![n, b]⟩ : Shape).size 0)) : h.lift (ix1 q) k = ix2 (⟨k.val, k.isLt⟩ : Fin n) q := by
  funext c; apply Fin.ext
  fin_cases c <;> rfl

/-- A sum along the leading axis, at column `q`: the sum of that column. -/
theorem multiReduction_add_col {φ : FTy} (src : FVec Ideal ⟨2, ![n, b]⟩ φ) (acc : BitVec φ.bits)
    (h : (⟨2, ![n, b]⟩ : Shape).Reduces [0] (⟨1, ![b]⟩ : Shape)) (hφ : FKind.Formats φ)
    (hacc : acc = FKind.add.neutral φ hφ) (q : Fin b) :
    multiReduction .add [0] ⟨1, ![b]⟩ src acc h hφ hacc (ix1 q) = ∑ k : Fin n, src (ix2 k q) := by
  rw [Ideal.multiReduction_add_single]
  show (∑ k : Fin n, src (h.lift (ix1 q) k)) = _
  exact Finset.sum_congr rfl fun k _ => congrArg src (lift_lead h q k)

/-- The side conditions the column spelling's operations carry. -/
structure ColWits (n b : ℕ) : Prop where
  hr : (⟨2, ![n, b]⟩ : Shape).Reduces [0] (⟨1, ![b]⟩ : Shape)
  hφ : FKind.Formats .f32
  hacc : (0x00000000#32 : BitVec (FTy.f32).bits) = FKind.add.neutral .f32 hφ
  hc : (⟨1, ![b]⟩ : Shape).ShapeCasts ⟨2, ![1, b]⟩
  hb : (⟨2, ![1, b]⟩ : Shape).Broadcasts ⟨2, ![n, b]⟩
  hcc : (⟨2, ![n, 1]⟩ : Shape).ShapeCasts ⟨2, ![n, 1]⟩
  hbc : (⟨2, ![n, 1]⟩ : Shape).Broadcasts ⟨2, ![n, b]⟩

variable (W : ColWits n b)

/-- The mean of every column as a `[1, b]` row: sum along the leading axis, view as a row, divide by the splat `cw`. -/
def colMean (h : FVec Ideal ⟨2, ![n, b]⟩ .f32) (cw : BitVec (FTy.f32).bits) : FVec Ideal ⟨2, ![1, b]⟩ .f32 :=
  divf (shapeCast ⟨2, ![1, b]⟩ (multiReduction .add [0] ⟨1, ![b]⟩ h 0x00000000#32 W.hr W.hφ W.hacc) W.hc)
    (broadcast ⟨2, ![1, b]⟩ (Scalar.ofBits (F := Ideal) .f32 cw))

theorem colMean_apply (h : FVec Ideal ⟨2, ![n, b]⟩ .f32) (cw : BitVec (FTy.f32).bits) (q : Fin b) :
    colMean W h cw (ix2 (0 : Fin 1) q) = mean (Ideal.ofBits .f32 cw) (colOf h q) := by
  show Ideal.div (shapeCast ⟨2, ![1, b]⟩ (multiReduction .add [0] ⟨1, ![b]⟩ h 0x00000000#32 W.hr W.hφ W.hacc) W.hc (ix2 (0 : Fin 1) q))
      (Ideal.ofBits .f32 cw) = _
  rw [shapeCast_a_1a_apply, multiReduction_add_col]
  rfl

/-- Every column centred at its mean. -/
def centredCols (h : FVec Ideal ⟨2, ![n, b]⟩ .f32) (cw : BitVec (FTy.f32).bits) : FVec Ideal ⟨2, ![n, b]⟩ .f32 :=
  subf h (broadcastTo ⟨2, ![n, b]⟩ (colMean W h cw) W.hb)

theorem centredCols_apply (h : FVec Ideal ⟨2, ![n, b]⟩ .f32) (cw : BitVec (FTy.f32).bits) (k : Fin n) (q : Fin b) :
    centredCols W h cw (ix2 k q) = colOf h q k - mean (Ideal.ofBits .f32 cw) (colOf h q) := by
  show h (ix2 k q) - broadcastTo ⟨2, ![n, b]⟩ (colMean W h cw) W.hb (ix2 k q) = _
  rw [broadcastTo_1b_ab_apply, colMean_apply]
  rfl

/-- Every column normalised, scaled by the column `g` and shifted by the column `be`. -/
def normedCols (h : FVec Ideal ⟨2, ![n, b]⟩ .f32) (g be : FVec Ideal ⟨2, ![n, 1]⟩ .f32) (cw εw : BitVec (FTy.f32).bits) :
    FVec Ideal ⟨2, ![n, b]⟩ .f32 :=
  addf (mulf (mulf (centredCols W h cw)
      (broadcastTo ⟨2, ![n, b]⟩ (rsqrt (addf (colMean W (mulf (centredCols W h cw) (centredCols W h cw)) cw)
        (broadcast ⟨2, ![1, b]⟩ (Scalar.ofBits (F := Ideal) .f32 εw)))) W.hb))
      (broadcastTo ⟨2, ![n, b]⟩ (shapeCast ⟨2, ![n, 1]⟩ g W.hcc) W.hbc))
    (broadcastTo ⟨2, ![n, b]⟩ (shapeCast ⟨2, ![n, 1]⟩ be W.hcc) W.hbc)

theorem normedCols_apply (h : FVec Ideal ⟨2, ![n, b]⟩ .f32) (g be : FVec Ideal ⟨2, ![n, 1]⟩ .f32) (cw εw : BitVec (FTy.f32).bits)
    (k : Fin n) (q : Fin b) :
    normedCols W h g be cw εw (ix2 k q)
      = normed (Ideal.ofBits .f32 cw) (Ideal.ofBits .f32 εw) (colOf h q) (colOf g 0) (colOf be 0) k := by
  have hvar : colOf (mulf (centredCols W h cw) (centredCols W h cw)) q
      = fun i => (colOf h q i - mean (Ideal.ofBits .f32 cw) (colOf h q)) * (colOf h q i - mean (Ideal.ofBits .f32 cw) (colOf h q)) :=
    funext fun i => by
      show centredCols W h cw (ix2 i q) * centredCols W h cw (ix2 i q) = _
      rw [centredCols_apply]
  have hscale : broadcastTo ⟨2, ![n, b]⟩ (rsqrt (addf (colMean W (mulf (centredCols W h cw) (centredCols W h cw)) cw)
        (broadcast ⟨2, ![1, b]⟩ (Scalar.ofBits (F := Ideal) .f32 εw)))) W.hb (ix2 k q)
      = Ideal.rsqrt (mean (Ideal.ofBits .f32 cw) (fun i => (colOf h q i - mean (Ideal.ofBits .f32 cw) (colOf h q))
          * (colOf h q i - mean (Ideal.ofBits .f32 cw) (colOf h q))) + Ideal.ofBits .f32 εw) := by
    rw [broadcastTo_1b_ab_apply]
    show Ideal.rsqrt (colMean W (mulf (centredCols W h cw) (centredCols W h cw)) cw (ix2 (0 : Fin 1) q) + Ideal.ofBits .f32 εw) = _
    rw [colMean_apply, hvar]
  have hg : broadcastTo ⟨2, ![n, b]⟩ (shapeCast ⟨2, ![n, 1]⟩ g W.hcc) W.hbc (ix2 k q) = colOf g 0 k := by
    rw [Cert.ColumnBroadcast.broadcastTo_a1_ab_apply, shapeCast_self]; rfl
  have hbe : broadcastTo ⟨2, ![n, b]⟩ (shapeCast ⟨2, ![n, 1]⟩ be W.hcc) W.hbc (ix2 k q) = colOf be 0 k := by
    rw [Cert.ColumnBroadcast.broadcastTo_a1_ab_apply, shapeCast_self]; rfl
  show centredCols W h cw (ix2 k q)
        * broadcastTo ⟨2, ![n, b]⟩ (rsqrt (addf (colMean W (mulf (centredCols W h cw) (centredCols W h cw)) cw)
            (broadcast ⟨2, ![1, b]⟩ (Scalar.ofBits (F := Ideal) .f32 εw)))) W.hb (ix2 k q)
        * broadcastTo ⟨2, ![n, b]⟩ (shapeCast ⟨2, ![n, 1]⟩ g W.hcc) W.hbc (ix2 k q)
      + broadcastTo ⟨2, ![n, b]⟩ (shapeCast ⟨2, ![n, 1]⟩ be W.hcc) W.hbc (ix2 k q) = _
  rw [centredCols_apply, hscale, hg, hbe]
  rfl

/-- Every column normalised, scaled, shifted and activated, in the column spelling (σ the one operation `logistic`). -/
def normActCols (h : FVec Ideal ⟨2, ![n, b]⟩ .f32) (g be : FVec Ideal ⟨2, ![n, 1]⟩ .f32) (cw εw : BitVec (FTy.f32).bits) :
    FVec Ideal ⟨2, ![n, b]⟩ .f32 :=
  mulf (normedCols W h g be cw εw) (logistic (normedCols W h g be cw εw))

/-- Column `q` of it is `normAct` of column `q`. -/
theorem colOf_normActCols (h : FVec Ideal ⟨2, ![n, b]⟩ .f32) (g be : FVec Ideal ⟨2, ![n, 1]⟩ .f32) (cw εw : BitVec (FTy.f32).bits)
    (q : Fin b) :
    colOf (normActCols W h g be cw εw) q
      = normAct (Ideal.ofBits .f32 cw) (Ideal.ofBits .f32 εw) (colOf h q) (colOf g 0) (colOf be 0) := by
  funext k
  show normedCols W h g be cw εw (ix2 k q) * Ideal.logistic (normedCols W h g be cw εw (ix2 k q)) = _
  rw [normedCols_apply]
  rfl

end Columns

/-! ## Row layout -/

section Rows
variable {a n : ℕ}

/-- The side conditions the row spelling's operations carry. -/
structure RowWits (a n : ℕ) : Prop where
  hred : (⟨2, ![a, n]⟩ : Shape).ReducesTo [1] (⟨1, ![a]⟩ : Shape)
  hu : 0 < (⟨0, ![]⟩ : Shape).numel
  h1 : (⟨1, ![a]⟩ : Shape).BroadcastsInDim ⟨2, ![a, 1]⟩ ![0]
  h0 : (⟨0, ![]⟩ : Shape).BroadcastsInDim ⟨2, ![a, 1]⟩ ![]
  h2 : (⟨2, ![a, 1]⟩ : Shape).BroadcastsInDim ⟨2, ![a, n]⟩ ![0, 1]
  hv1 : (⟨1, ![n]⟩ : Shape).BroadcastsInDim ⟨2, ![1, n]⟩ ![1]
  hv2 : (⟨2, ![1, n]⟩ : Shape).BroadcastsInDim ⟨2, ![a, n]⟩ ![0, 1]
  h00 : (⟨0, ![]⟩ : Shape).BroadcastsInDim ⟨2, ![a, n]⟩ ![]

variable (W : RowWits a n)

/-- The mean of every row as an `[a, 1]` column: sum along the second axis from the constant 0, give it a unit
    trailing axis, divide by the broadcast constant `cw`. -/
def rowMean (h : FVec Ideal ⟨2, ![a, n]⟩ .f32) (cw : BitVec (FTy.f32).bits) : FVec Ideal ⟨2, ![a, 1]⟩ .f32 :=
  Host.divf (broadcastInDim ⟨2, ![a, 1]⟩ ![0] W.h1
      (Host.reduceAdd h (constant (F := Ideal) ⟨0, ![]⟩ .f32 0x00000000#32) W.hred W.hu))
    (broadcastInDim ⟨2, ![a, 1]⟩ ![] W.h0 (constant (F := Ideal) ⟨0, ![]⟩ .f32 cw))

theorem rowMean_apply (hR : (⟨2, ![a, n]⟩ : Shape).Reduces [1] (⟨1, ![a]⟩ : Shape))
    (h : FVec Ideal ⟨2, ![a, n]⟩ .f32) (cw : BitVec (FTy.f32).bits) (p : Fin a) :
    rowMean W h cw (ix2 p (0 : Fin 1)) = mean (Ideal.ofBits .f32 cw) (rowOf h p) := by
  show Ideal.div (broadcastInDim ⟨2, ![a, 1]⟩ ![0] W.h1
      (Host.reduceAdd h (constant (F := Ideal) ⟨0, ![]⟩ .f32 0x00000000#32) W.hred W.hu) (ix2 p (0 : Fin 1)))
      (Ideal.ofBits .f32 cw) = _
  rw [Cert.ChebRows.column_host_apply, Cert.ChebRows.hostReduceAdd_row h _ W.hred hR W.hu p]
  show Ideal.div (Ideal.ofBits .f32 0x00000000#32 + ∑ k : Fin n, h (ix2 p k)) (Ideal.ofBits .f32 cw) = _
  rw [Ideal.ofBits_zero_f32, zero_add]
  rfl

/-- Every row centred at its mean. -/
def centredRows (h : FVec Ideal ⟨2, ![a, n]⟩ .f32) (cw : BitVec (FTy.f32).bits) : FVec Ideal ⟨2, ![a, n]⟩ .f32 :=
  subf h (broadcastInDim ⟨2, ![a, n]⟩ ![0, 1] W.h2 (rowMean W h cw))

theorem centredRows_apply (hR : (⟨2, ![a, n]⟩ : Shape).Reduces [1] (⟨1, ![a]⟩ : Shape))
    (h : FVec Ideal ⟨2, ![a, n]⟩ .f32) (cw : BitVec (FTy.f32).bits) (p : Fin a) (k : Fin n) :
    centredRows W h cw (ix2 p k) = rowOf h p k - mean (Ideal.ofBits .f32 cw) (rowOf h p) := by
  show h (ix2 p k) - broadcastInDim ⟨2, ![a, n]⟩ ![0, 1] W.h2 (rowMean W h cw) (ix2 p k) = _
  rw [Cert.ChebRows.lanes_host_apply, rowMean_apply W hR]
  rfl

/-- Every row normalised, scaled by the vector `g` and shifted by the vector `be`. -/
def normedRows (h : FVec Ideal ⟨2, ![a, n]⟩ .f32) (g be : FVec Ideal ⟨1, ![n]⟩ .f32) (cw εw : BitVec (FTy.f32).bits) :
    FVec Ideal ⟨2, ![a, n]⟩ .f32 :=
  addf (mulf (mulf (centredRows W h cw)
      (broadcastInDim ⟨2, ![a, n]⟩ ![0, 1] W.h2 (Host.rsqrt (addf (rowMean W (mulf (centredRows W h cw) (centredRows W h cw)) cw)
        (broadcastInDim ⟨2, ![a, 1]⟩ ![] W.h0 (constant (F := Ideal) ⟨0, ![]⟩ .f32 εw))))))
      (broadcastInDim ⟨2, ![a, n]⟩ ![0, 1] W.hv2 (broadcastInDim ⟨2, ![1, n]⟩ ![1] W.hv1 g)))
    (broadcastInDim ⟨2, ![a, n]⟩ ![0, 1] W.hv2 (broadcastInDim ⟨2, ![1, n]⟩ ![1] W.hv1 be))

theorem normedRows_apply (hR : (⟨2, ![a, n]⟩ : Shape).Reduces [1] (⟨1, ![a]⟩ : Shape))
    (h : FVec Ideal ⟨2, ![a, n]⟩ .f32) (g be : FVec Ideal ⟨1, ![n]⟩ .f32) (cw εw : BitVec (FTy.f32).bits) (p : Fin a) (k : Fin n) :
    normedRows W h g be cw εw (ix2 p k)
      = normed (Ideal.ofBits .f32 cw) (Ideal.ofBits .f32 εw) (rowOf h p) (vec g) (vec be) k := by
  have hvar : rowOf (mulf (centredRows W h cw) (centredRows W h cw)) p
      = fun i => (rowOf h p i - mean (Ideal.ofBits .f32 cw) (rowOf h p)) * (rowOf h p i - mean (Ideal.ofBits .f32 cw) (rowOf h p)) :=
    funext fun i => by
      show centredRows W h cw (ix2 p i) * centredRows W h cw (ix2 p i) = _
      rw [centredRows_apply W hR]
  have hscale : broadcastInDim ⟨2, ![a, n]⟩ ![0, 1] W.h2 (Host.rsqrt (addf (rowMean W (mulf (centredRows W h cw) (centredRows W h cw)) cw)
        (broadcastInDim ⟨2, ![a, 1]⟩ ![] W.h0 (constant (F := Ideal) ⟨0, ![]⟩ .f32 εw)))) (ix2 p k)
      = Ideal.rsqrt (mean (Ideal.ofBits .f32 cw) (fun i => (rowOf h p i - mean (Ideal.ofBits .f32 cw) (rowOf h p))
          * (rowOf h p i - mean (Ideal.ofBits .f32 cw) (rowOf h p))) + Ideal.ofBits .f32 εw) := by
    rw [Cert.ChebRows.lanes_host_apply]
    show Ideal.rsqrt (rowMean W (mulf (centredRows W h cw) (centredRows W h cw)) cw (ix2 p (0 : Fin 1)) + Ideal.ofBits .f32 εw) = _
    rw [rowMean_apply W hR, hvar]
  have hg := congrFun (rowOf_broadcastInDim_vec (a := a) g W.hv1 W.hv2 p) k
  have hbe := congrFun (rowOf_broadcastInDim_vec (a := a) be W.hv1 W.hv2 p) k
  show centredRows W h cw (ix2 p k)
        * broadcastInDim ⟨2, ![a, n]⟩ ![0, 1] W.h2 (Host.rsqrt (addf (rowMean W (mulf (centredRows W h cw) (centredRows W h cw)) cw)
            (broadcastInDim ⟨2, ![a, 1]⟩ ![] W.h0 (constant (F := Ideal) ⟨0, ![]⟩ .f32 εw)))) (ix2 p k)
        * rowOf (broadcastInDim ⟨2, ![a, n]⟩ ![0, 1] W.hv2 (broadcastInDim ⟨2, ![1, n]⟩ ![1] W.hv1 g)) p k
      + rowOf (broadcastInDim ⟨2, ![a, n]⟩ ![0, 1] W.hv2 (broadcastInDim ⟨2, ![1, n]⟩ ![1] W.hv1 be)) p k = _
  rw [centredRows_apply W hR, hscale, hg, hbe]
  rfl

/-- `y · σ(y)` entry by entry, σ spelt `1 / (1 + exp (−y))` with the constant one given as the word `ow`. -/
def siluRows (y : FVec Ideal ⟨2, ![a, n]⟩ .f32) (ow : BitVec (FTy.f32).bits) : FVec Ideal ⟨2, ![a, n]⟩ .f32 :=
  mulf y (Host.divf (broadcastInDim ⟨2, ![a, n]⟩ ![] W.h00 (constant (F := Ideal) ⟨0, ![]⟩ .f32 ow))
    (addf (broadcastInDim ⟨2, ![a, n]⟩ ![] W.h00 (constant (F := Ideal) ⟨0, ![]⟩ .f32 ow)) (Host.exp (Host.negf y))))

theorem siluRows_apply (y : FVec Ideal ⟨2, ![a, n]⟩ .f32) (ow : BitVec (FTy.f32).bits) (hone : Ideal.ofBits .f32 ow = 1)
    (i : (⟨2, ![a, n]⟩ : Shape).Idx) : siluRows W y ow i = silu (y i) := by
  show y i * Ideal.div (Ideal.ofBits .f32 ow) (Ideal.ofBits .f32 ow + Ideal.exp (-(y i))) = _
  rw [hone]
  rfl

/-- Row `p` of the activated, normalised array is `normAct` of row `p`. -/
theorem rowOf_siluRows_normedRows (hR : (⟨2, ![a, n]⟩ : Shape).Reduces [1] (⟨1, ![a]⟩ : Shape))
    (h : FVec Ideal ⟨2, ![a, n]⟩ .f32) (g be : FVec Ideal ⟨1, ![n]⟩ .f32) (cw εw ow : BitVec (FTy.f32).bits)
    (hone : Ideal.ofBits .f32 ow = 1) (p : Fin a) :
    rowOf (siluRows W (normedRows W h g be cw εw) ow) p
      = normAct (Ideal.ofBits .f32 cw) (Ideal.ofBits .f32 εw) (rowOf h p) (vec g) (vec be) := by
  funext k
  show siluRows W (normedRows W h g be cw εw) ow (ix2 p k) = _
  rw [siluRows_apply W _ ow hone, normedRows_apply W hR]
  rfl

end Rows

end Cert.NormAct

end
-- ==== Proof.LibAffineColumns.lean ====
/-
  An affine map applied to the columns of a matrix, over the extended reals.

  For a weight matrix `w` of shape [a, K], a matrix `x` of shape [K, n] whose columns are the inputs, and a bias vector
  `bias` of length a, the affine map sends column c of `x` to `w · x[:, c] + bias`: entry (r, c) of the result is
  `(∑ k, w[r, k] · x[k, c]) + bias[r]`. This file names that whole-array function (`affine`) and reads, at an index
  given by coordinates, the array operations that compute one block of it on the device: a matrix product into a zero
  accumulator whose operands pass through a change of float format (the identity on an extended real), plus a bias
  column [a, 1] broadcast along the lanes. It also reads a vector viewed as a column, [a] → [a, 1]. Every statement is
  for arbitrary extents, so it serves a block of columns and the whole array alike; no finiteness is needed, because
  the two sides are the same sum and the same addition.
-/
import proofs.«178799_j71047349011134_2_alg».proof.Proof.LibRowLayers
import proofs.«178799_j71047349011134_2_alg».proof.Proof.LibColumnBroadcast

noncomputable section

namespace Cert.AffineColumns

open Idealize.ShloMosaic Idealize.ShloMosaic.ValueIdx Cert.RowLayers

/-- The affine map on columns: entry `(r, c)` is `(∑ k, w[r, k] · x[k, c]) + bias[r]`. -/
def affine {a K n : ℕ} (w : (⟨2, ![a, K]⟩ : Shape).Idx → EReal) (x : (⟨2, ![K, n]⟩ : Shape).Idx → EReal)
    (bias : (⟨1, ![a]⟩ : Shape).Idx → EReal) : (⟨2, ![a, n]⟩ : Shape).Idx → EReal :=
  fun i => (∑ k : Fin K, w (ix2 (i 0) k) * x (ix2 k (i 1))) + bias (ix1 (i 0))

/-- The affine map at an index written by coordinates. -/
theorem affine_ix2 {a K n : ℕ} (w : (⟨2, ![a, K]⟩ : Shape).Idx → EReal) (x : (⟨2, ![K, n]⟩ : Shape).Idx → EReal)
    (bias : (⟨1, ![a]⟩ : Shape).Idx → EReal) (r : Fin a) (c : Fin n) :
    affine w x bias (ix2 r c) = (∑ k : Fin K, w (ix2 r k) * x (ix2 k c)) + bias (ix1 r) := rfl

/-- A vector viewed as a column, `[a] → [a, 1]`, reads at `(r, u)` the vector at `r`: the two indices have the same
    row-major position `r`. -/
theorem shapeCast_a_a1_apply {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

section Block
variable {a K b : ℕ} {d : DotDims ⟨2, ![a, K]⟩ ⟨2, ![K, b]⟩ ⟨2, ![a, b]⟩}

/-- One block of the affine map as the device computes it: both operands change float format (nothing happens to an
    extended real), their product is accumulated into zeros, and the bias column — cast to its own shape, then broadcast
    along the lanes — is added. Entry `(p, q)` is `(∑ k, w[p, k] · x[k, q]) + col[p, 0]`. -/
theorem matmul_add_column_apply {φ ψ : FTy} (H : RowsTimesCols d) (prec : Option ContractPrecision)
    (w : FVec Ideal ⟨2, ![a, K]⟩ φ) (x : FVec Ideal ⟨2, ![K, b]⟩ φ) (col : FVec Ideal ⟨2, ![a, 1]⟩ .f32)
    (hφ : ψ.bits < φ.bits) (hc : (⟨2, ![a, 1]⟩ : Shape).ShapeCasts ⟨2, ![a, 1]⟩)
    (hb : (⟨2, ![a, 1]⟩ : Shape).Broadcasts ⟨2, ![a, b]⟩) (p : Fin a) (q : Fin b) :
    addf (matmul d prec (truncf ψ w hφ) (truncf ψ x hφ) (constant (F := Ideal) ⟨2, ![a, b]⟩ .f32 0x00000000#32))
        (broadcastTo ⟨2, ![a, b]⟩ (shapeCast ⟨2, ![a, 1]⟩ col hc) hb) (ix2 p q)
      = (∑ k : Fin K, w (ix2 p k) * x (ix2 k q)) + col (ix2 p (0 : Fin 1)) := by
  have hprod := congrFun (rowOf_matmul_zero H prec (truncf ψ w hφ : FVec Ideal ⟨2, ![a, K]⟩ ψ)
    (truncf ψ x hφ : FVec Ideal ⟨2, ![K, b]⟩ ψ) p) q
  have hcol : broadcastTo ⟨2, ![a, b]⟩ (shapeCast ⟨2, ![a, 1]⟩ col hc) hb (ix2 p q) = col (ix2 p (0 : Fin 1)) := by
    rw [Cert.ColumnBroadcast.broadcastTo_a1_ab_apply, shapeCast_self]
  show matmul d prec (truncf ψ w hφ) (truncf ψ x hφ) (constant (F := Ideal) ⟨2, ![a, b]⟩ .f32 0x00000000#32) (ix2 p q)
      + broadcastTo ⟨2, ![a, b]⟩ (shapeCast ⟨2, ![a, 1]⟩ col hc) hb (ix2 p q) = _
  rw [hcol]
  exact congrArg (· + col (ix2 p (0 : Fin 1))) hprod

end Block

end Cert.AffineColumns

end
-- ==== Proof.MlpSpec.lean ====
/-
  The network on one input number, over the extended reals.

  Every row of the input matrix holds ONE number `x` (the input width is 1). The first layer sends it to the vector
  `i ↦ w1 i · x + b1 i`; that vector is normalised, scaled, shifted and activated (`normAct`); the second layer is an
  affine map with a square weight matrix, `i ↦ (∑ k, W2 i k · h k) + b2 i`, again followed by `normAct`; the last layer
  is one scalar product with `w3` plus `b3`. `mlpOut` is that number, and `G` the whole result: entry `i` of the
  result is `mlpOut` of entry `i` of the input, with the parameters read off the weight arrays as the programs hold them
  (the first weight as a [32, 1] column, the last as a [1, 32] row, the biases, scales and shifts as vectors).
-/
import proofs.«178799_j71047349011134_2_alg».proof.Proof.LibNormAct
import proofs.«178799_j71047349011134_2_alg».proof.Proof.LibRowExtras

noncomputable section

namespace Cert.Mlp

open Idealize.ShloMosaic Idealize.ShloMosaic.ValueIdx Cert.RowLayers Cert.NormAct

/-- The network's output on the number `x`. -/
def mlpOut {n : ℕ} (c ε x : EReal) (w1 b1 g1 be1 : Fin n → EReal) (W2 : Fin n → Fin n → EReal) (b2 g2 be2 w3 : Fin n → EReal)
    (b3 : EReal) : EReal :=
  (∑ j : Fin n, w3 j * normAct c ε (fun i => (∑ k : Fin n, W2 i k * normAct c ε (fun i' => w1 i' * x + b1 i') g1 be1 k) + b2 i) g2 be2 j) + b3

/-- The divisor both programs use for a mean over the 32 hidden entries: the f32 word of 32.0. -/
abbrev c32 : EReal := Ideal.ofBits .f32 0x42000000#32
/-- The offset both programs add to a variance: the f32 word nearest 1e-5. -/
abbrev eps : EReal := Ideal.ofBits .f32 0x3727C5AC#32

/-- The result array as one function of the eleven argument arrays, entry by entry. -/
def G (x : (⟨2, ![2097152, 1]⟩ : Shape).Idx → EReal) (W1 : (⟨2, ![32, 1]⟩ : Shape).Idx → EReal)
    (b1 g1 be1 : (⟨1, ![32]⟩ : Shape).Idx → EReal) (W2 : (⟨2, ![32, 32]⟩ : Shape).Idx → EReal)
    (b2 g2 be2 : (⟨1, ![32]⟩ : Shape).Idx → EReal) (W3 : (⟨2, ![1, 32]⟩ : Shape).Idx → EReal)
    (b3 : (⟨1, ![1]⟩ : Shape).Idx → EReal) : (⟨2, ![2097152, 1]⟩ : Shape).Idx → EReal :=
  fun i => mlpOut c32 eps (x i) (fun j => W1 (ix2 j (0 : Fin 1))) (vec b1) (vec g1) (vec be1) (fun p k => W2 (ix2 p k))
    (vec b2) (vec g2) (vec be2) (fun j => W3 (ix2 (0 : Fin 1) j)) (b3 (ix1 (0 : Fin 1)))

end Cert.Mlp

end
-- ==== Proof.KernelColumns.lean ====
/-
  The kernel's arithmetic on one block, read column by column.

  The kernel holds the hidden state TRANSPOSED: a [32, 16384] array whose column `t` is the hidden vector of the
  block's input number `x[0, t]`. Its first payload is the second layer's matrix product `W2 · h1`, where `h1` is the
  activated normalisation of the first layer's outer product `w1 · x + b1`; its second payload adds the bias column,
  normalises and activates again, multiplies by the last weight column, sums down each column and adds the last bias.
  Read at entry `(0, t)`, the stored row is `mlpOut` of `x[0, t]` and the parameters' columns.
-/
import proofs.«178799_j71047349011134_2_alg».proof.Proof.Gen.KernelIdeal.Skeleton
import proofs.«178799_j71047349011134_2_alg».proof.Proof.LibNormAct
import proofs.«178799_j71047349011134_2_alg».proof.Proof.LibAffineColumns
import proofs.«178799_j71047349011134_2_alg».proof.Proof.MlpSpec

noncomputable section

namespace Cert.KernelIdeal.Hand

open Cert.KernelIdeal Cert.KernelIdeal.Gen Idealize.ShloMosaic Idealize.ShloMosaic.ValueIdx Cert.RowLayers Cert.NormAct Cert.Mlp

/-- The side conditions of the kernel's column operations on a [32, 16384] block. -/
theorem colWits : ColWits 32 16384 :=
  ⟨Gen.reduces_S32x16384_S16384, .inl rfl, rfl, Gen.shapeCasts_S16384_S1x16384, Gen.broadcasts_S1x16384_S32x16384,
    Gen.shapeCasts_S32x1_S32x1, Gen.broadcasts_S32x1_S32x16384⟩

/-- The second layer's product contracts the weight's second axis with the hidden state's first. -/
theorem dotRC : RowsTimesCols (a := 32) (K := 32) (b := 16384) dot_S32x32_S32x16384_S32x16384_1_0_0_1_n_n :=
  ⟨rfl, rfl, fun _ _ => rfl, fun _ _ => rfl, fun _ _ => rfl, fun _ _ => rfl⟩

/-- The first layer in the kernel's layout: the weight column times the input row, plus the bias column. -/
def layer1 (v0 : FVec Ideal S1x16384 .f32) (v2 v6 : FVec Ideal S32x1 .f32) : FVec Ideal S32x16384 .f32 :=
  addf (mulf (broadcastTo S32x16384 v2 Gen.broadcasts_S32x1_S32x16384)
      (broadcastTo S32x16384 (shapeCast S1x16384 v0 Gen.shapeCasts_S1x16384_S1x16384) Gen.broadcasts_S1x16384_S32x16384))
    (broadcastTo S32x16384 (shapeCast S32x1 v6 Gen.shapeCasts_S32x1_S32x1) Gen.broadcasts_S32x1_S32x16384)

/-- Column `t` of the first layer: `i ↦ w1 i · x[0, t] + b1 i`. -/
theorem colOf_layer1 (v0 : FVec Ideal S1x16384 .f32) (v2 v6 : FVec Ideal S32x1 .f32) (t : Fin 16384) :
    colOf (layer1 v0 v2 v6) t = fun i => colOf v2 0 i * v0 (ix2 (0 : Fin 1) t) + colOf v6 0 i := by
  funext i
  have e1 : broadcastTo S32x16384 v2 Gen.broadcasts_S32x1_S32x16384 (ix2 i t) = colOf v2 0 i :=
    Cert.ColumnBroadcast.broadcastTo_a1_ab_apply v2 _ i t
  have e2 : broadcastTo S32x16384 (shapeCast S1x16384 v0 Gen.shapeCasts_S1x16384_S1x16384) Gen.broadcasts_S1x16384_S32x16384 (ix2 i t)
      = v0 (ix2 (0 : Fin 1) t) := by
    rw [broadcastTo_1b_ab_apply, shapeCast_self]
  have e3 : broadcastTo S32x16384 (shapeCast S32x1 v6 Gen.shapeCasts_S32x1_S32x1) Gen.broadcasts_S32x1_S32x16384 (ix2 i t) = colOf v6 0 i := by
    rw [Cert.ColumnBroadcast.broadcastTo_a1_ab_apply, shapeCast_self]; rfl
  show broadcastTo S32x16384 v2 Gen.broadcasts_S32x1_S32x16384 (ix2 i t)
        * broadcastTo S32x16384 (shapeCast S1x16384 v0 Gen.shapeCasts_S1x16384_S1x16384) Gen.broadcasts_S1x16384_S32x16384 (ix2 i t)
      + broadcastTo S32x16384 (shapeCast S32x1 v6 Gen.shapeCasts_S32x1_S32x1) Gen.broadcasts_S32x1_S32x16384 (ix2 i t) = _
  rw [e1, e2, e3]

/-- The first payload is the product of the weight matrix with the activated, normalised first layer (both operands
    through a change of float format), into a zero accumulator. -/
theorem pay1_eq (v0 : FVec Ideal S1x16384 .f32) (v2 v6 v10 v12 : FVec Ideal S32x1 .f32) (v37 : FVec Ideal S32x32 .f32) :
    k0_pay1 (F := Ideal) v0 v2 v6 v10 v12 v37
      = matmul dot_S32x32_S32x16384_S32x16384_1_0_0_1_n_n none (truncf .bf16 v37 Gen.bitsLt_bf16_f32)
          (truncf .bf16 (normActCols colWits (layer1 v0 v2 v6) v10 v12 0x42000000#32 0x3727C5AC#32) Gen.bitsLt_bf16_f32)
          (constant S32x16384 .f32 0x00000000#32) := rfl

/-- Entry `(j, t)` of the first payload: `∑ k, W2[j, k] · h1 k`, `h1` the activated normalisation of column `t` of the first layer. -/
theorem pay1_apply (v0 : FVec Ideal S1x16384 .f32) (v2 v6 v10 v12 : FVec Ideal S32x1 .f32) (v37 : FVec Ideal S32x32 .f32)
    (j : Fin 32) (t : Fin 16384) :
    k0_pay1 (F := Ideal) v0 v2 v6 v10 v12 v37 (ix2 j t)
      = ∑ k : Fin 32, v37 (ix2 j k)
          * normAct c32 eps (fun i => colOf v2 0 i * v0 (ix2 (0 : Fin 1) t) + colOf v6 0 i) (colOf v10 0) (colOf v12 0) k := by
  rw [pay1_eq]
  refine (congrFun (rowOf_matmul_zero dotRC none (truncf .bf16 v37 Gen.bitsLt_bf16_f32 : FVec Ideal S32x32 .bf16)
    (truncf .bf16 (normActCols colWits (layer1 v0 v2 v6) v10 v12 0x42000000#32 0x3727C5AC#32) Gen.bitsLt_bf16_f32 : FVec Ideal S32x16384 .bf16) j) t).trans ?_
  refine Finset.sum_congr rfl fun k _ => ?_
  refine congrArg (v37 (ix2 j k) * ·) ?_
  refine (congrFun (colOf_normActCols colWits (layer1 v0 v2 v6) v10 v12 0x42000000#32 0x3727C5AC#32 t) k).trans ?_
  rw [colOf_layer1]

/-- The second payload: the bias column added, the columns normalised and activated, multiplied by the last weight column,
    summed down each column, viewed as a row, plus the last bias broadcast along it. -/
theorem pay2_eq (v39 : FVec Ideal S32x16384 .f32) (v40 v44 v46 v70 : FVec Ideal S32x1 .f32) (v76 : FVec Ideal S1x1 .f32) :
    k0_pay2 (F := Ideal) v39 v40 v44 v46 v70 v76
      = addf (shapeCast S1x16384 (multiReduction .add [0] S16384
            (mulf (broadcastTo S32x16384 (shapeCast S32x1 v70 Gen.shapeCasts_S32x1_S32x1) Gen.broadcasts_S32x1_S32x16384)
              (normActCols colWits (addf v39 (broadcastTo S32x16384 (shapeCast S32x1 v40 Gen.shapeCasts_S32x1_S32x1) Gen.broadcasts_S32x1_S32x16384))
                v44 v46 0x42000000#32 0x3727C5AC#32))
            0x00000000#32 Gen.reduces_S32x16384_S16384 (.inl rfl) rfl) Gen.shapeCasts_S16384_S1x16384)
          (broadcastTo S1x16384 (shapeCast S1x1 v76 Gen.shapeCasts_S1x1_S1x1) Gen.broadcasts_S1x1_S1x16384) := rfl

/-- Entry `(0, t)` of the second payload. -/
theorem pay2_apply (v39 : FVec Ideal S32x16384 .f32) (v40 v44 v46 v70 : FVec Ideal S32x1 .f32) (v76 : FVec Ideal S1x1 .f32) (t : Fin 16384) :
    k0_pay2 (F := Ideal) v39 v40 v44 v46 v70 v76 (ix2 (0 : Fin 1) t)
      = (∑ j : Fin 32, colOf v70 0 j * normAct c32 eps (fun i => v39 (ix2 i t) + colOf v40 0 i) (colOf v44 0) (colOf v46 0) j)
          + v76 (ix2 (0 : Fin 1) (0 : Fin 1)) := by
  rw [pay2_eq]
  have hcol : colOf (addf v39 (broadcastTo S32x16384 (shapeCast S32x1 v40 Gen.shapeCasts_S32x1_S32x1) Gen.broadcasts_S32x1_S32x16384)) t
      = fun i => v39 (ix2 i t) + colOf v40 0 i := funext fun i => by
    show v39 (ix2 i t) + broadcastTo S32x16384 (shapeCast S32x1 v40 Gen.shapeCasts_S32x1_S32x1) Gen.broadcasts_S32x1_S32x16384 (ix2 i t) = _
    rw [Cert.ColumnBroadcast.broadcastTo_a1_ab_apply, shapeCast_self]; rfl
  have hsum : shapeCast S1x16384 (multiReduction .add [0] S16384
            (mulf (broadcastTo S32x16384 (shapeCast S32x1 v70 Gen.shapeCasts_S32x1_S32x1) Gen.broadcasts_S32x1_S32x16384)
              (normActCols colWits (addf v39 (broadcastTo S32x16384 (shapeCast S32x1 v40 Gen.shapeCasts_S32x1_S32x1) Gen.broadcasts_S32x1_S32x16384))
                v44 v46 0x42000000#32 0x3727C5AC#32))
            0x00000000#32 Gen.reduces_S32x16384_S16384 (.inl rfl) rfl) Gen.shapeCasts_S16384_S1x16384 (ix2 (0 : Fin 1) t)
      = ∑ j : Fin 32, colOf v70 0 j * normAct c32 eps (fun i => v39 (ix2 i t) + colOf v40 0 i) (colOf v44 0) (colOf v46 0) j := by
    refine (shapeCast_a_1a_apply _ Gen.shapeCasts_S16384_S1x16384 (0 : Fin 1) t).trans ?_
    refine (multiReduction_add_col _ 0x00000000#32 Gen.reduces_S32x16384_S16384 (.inl rfl) rfl t).trans ?_
    refine Finset.sum_congr rfl fun j _ => ?_
    show broadcastTo S32x16384 (shapeCast S32x1 v70 Gen.shapeCasts_S32x1_S32x1) Gen.broadcasts_S32x1_S32x16384 (ix2 j t)
        * normActCols colWits (addf v39 (broadcastTo S32x16384 (shapeCast S32x1 v40 Gen.shapeCasts_S32x1_S32x1) Gen.broadcasts_S32x1_S32x16384))
            v44 v46 0x42000000#32 0x3727C5AC#32 (ix2 j t) = _
    rw [Cert.ColumnBroadcast.broadcastTo_a1_ab_apply, shapeCast_self]
    refine congrArg (v70 (ix2 j (0 : Fin 1)) * ·) ?_
    refine (congrFun (colOf_normActCols colWits _ v44 v46 0x42000000#32 0x3727C5AC#32 t) j).trans ?_
    rw [hcol]
  have hb : broadcastTo S1x16384 (shapeCast S1x1 v76 Gen.shapeCasts_S1x1_S1x1) Gen.broadcasts_S1x1_S1x16384 (ix2 (0 : Fin 1) t)
      = v76 (ix2 (0 : Fin 1) (0 : Fin 1)) := by
    rw [Cert.ColumnBroadcast.broadcastTo_a1_ab_apply, shapeCast_self]
  show shapeCast S1x16384 _ Gen.shapeCasts_S16384_S1x16384 (ix2 (0 : Fin 1) t)
      + broadcastTo S1x16384 (shapeCast S1x1 v76 Gen.shapeCasts_S1x1_S1x1) Gen.broadcasts_S1x1_S1x16384 (ix2 (0 : Fin 1) t) = _
  rw [hsum, hb]

/-- The row the body stores, at entry `(0, t)`: the network's output on `x[0, t]`. -/
theorem stored_apply (v0 : FVec Ideal S1x16384 .f32) (v2 v6 v10 v12 : FVec Ideal S32x1 .f32) (v37 : FVec Ideal S32x32 .f32)
    (v40 v44 v46 v70 : FVec Ideal S32x1 .f32) (v76 : FVec Ideal S1x1 .f32) (t : Fin 16384) :
    k0_pay2 (F := Ideal) (k0_pay1 (F := Ideal) v0 v2 v6 v10 v12 v37) v40 v44 v46 v70 v76 (ix2 (0 : Fin 1) t)
      = mlpOut c32 eps (v0 (ix2 (0 : Fin 1) t)) (colOf v2 0) (colOf v6 0) (colOf v10 0) (colOf v12 0) (fun p k => v37 (ix2 p k))
          (colOf v40 0) (colOf v44 0) (colOf v46 0) (colOf v70 0) (v76 (ix2 (0 : Fin 1) (0 : Fin 1))) := by
  rw [pay2_apply]
  simp only [pay1_apply]
  rfl

end Cert.KernelIdeal.Hand

end
-- ==== Proof.KernelValue.lean ====
/-
  From the kernel's blocks to its result array, and through the last reshape.

  The input row [1, 2097152] and the output row are cut into 128 blocks of 16384 columns; grid point `t` reads block
  `t` of the input and writes block `t` of the output, while the ten parameter arrays are handed over whole at every
  point. So what point `t` writes back is block `t` of ONE function of the arrays the region finds: entry `i` of the
  output row is the network's output on entry `i` of the input row. The blocks tile the row, so the row ends holding
  that function. The input row is the input column viewed as a row, and the result is the output row viewed as a
  column: the two views cancel, and the result column is `G` of the argument arrays, entry by entry. The parameter
  columns the kernel reads are the argument vectors viewed as columns.
-/
import proofs.«178799_j71047349011134_2_alg».proof.Proof.Gen.KernelIdeal.Frame
import proofs.«178799_j71047349011134_2_alg».proof.Proof.KernelColumns
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.RowLayers Cert.NormAct Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## The argument arrays, and the arrays the host lines before the region write -/

abbrev aX (c : Dev nD) : S2097152x1.Idx → EReal := m ((c : Thread nD τ).loc main_arg0)
abbrev aW1 (c : Dev nD) : S32x1.Idx → EReal := m ((c : Thread nD τ).loc main_arg1)
abbrev aB1 (c : Dev nD) : S32.Idx → EReal := m ((c : Thread nD τ).loc main_arg2)
abbrev aG1 (c : Dev nD) : S32.Idx → EReal := m ((c : Thread nD τ).loc main_arg3)
abbrev aBe1 (c : Dev nD) : S32.Idx → EReal := m ((c : Thread nD τ).loc main_arg4)
abbrev aW2 (c : Dev nD) : S32x32.Idx → EReal := m ((c : Thread nD τ).loc main_arg5)
abbrev aB2 (c : Dev nD) : S32.Idx → EReal := m ((c : Thread nD τ).loc main_arg6)
abbrev aG2 (c : Dev nD) : S32.Idx → EReal := m ((c : Thread nD τ).loc main_arg7)
abbrev aBe2 (c : Dev nD) : S32.Idx → EReal := m ((c : Thread nD τ).loc main_arg8)
abbrev aW3 (c : Dev nD) : S1x32.Idx → EReal := m ((c : Thread nD τ).loc main_arg9)
abbrev aB3 (c : Dev nD) : S1.Idx → EReal := m ((c : Thread nD τ).loc main_arg10)

theorem V_v0 (c : Dev nD) : (V m c main_v0 : S1x2097152.Idx → EReal) = shapeCast S1x2097152 (m ((c : Thread nD τ).loc main_arg0)) Gen.shapeCasts_S2097152x1_S1x2097152 := by
  show StableHlo.after hostOps0 (fun b => m (c, b)) (Proc.devRef .tc main_v0) = _
  after_results; rfl
theorem V_v1 (c : Dev nD) : (V m c main_v1 : S32x1.Idx → EReal) = shapeCast S32x1 (m ((c : Thread nD τ).loc main_arg2)) Gen.shapeCasts_S32_S32x1 := by
  show StableHlo.after hostOps0 (fun b => m (c, b)) (Proc.devRef .tc main_v1) = _
  after_results; rfl
theorem V_v2 (c : Dev nD) : (V m c main_v2 : S32x1.Idx → EReal) = shapeCast S32x1 (m ((c : Thread nD τ).loc main_arg3)) Gen.shapeCasts_S32_S32x1 := by
  show StableHlo.after hostOps0 (fun b => m (c, b)) (Proc.devRef .tc main_v2) = _
  after_results; rfl
theorem V_v3 (c : Dev nD) : (V m c main_v3 : S32x1.Idx → EReal) = shapeCast S32x1 (m ((c : Thread nD τ).loc main_arg4)) Gen.shapeCasts_S32_S32x1 := by
  show StableHlo.after hostOps0 (fun b => m (c, b)) (Proc.devRef .tc main_v3) = _
  after_results; rfl
theorem V_v4 (c : Dev nD) : (V m c main_v4 : S32x1.Idx → EReal) = shapeCast S32x1 (m ((c : Thread nD τ).loc main_arg6)) Gen.shapeCasts_S32_S32x1 := by
  show StableHlo.after hostOps0 (fun b => m (c, b)) (Proc.devRef .tc main_v4) = _
  after_results; rfl
theorem V_v5 (c : Dev nD) : (V m c main_v5 : S32x1.Idx → EReal) = shapeCast S32x1 (m ((c : Thread nD τ).loc main_arg7)) Gen.shapeCasts_S32_S32x1 := by
  show StableHlo.after hostOps0 (fun b => m (c, b)) (Proc.devRef .tc main_v5) = _
  after_results; rfl
theorem V_v6 (c : Dev nD) : (V m c main_v6 : S32x1.Idx → EReal) = shapeCast S32x1 (m ((c : Thread nD τ).loc main_arg8)) Gen.shapeCasts_S32_S32x1 := by
  show StableHlo.after hostOps0 (fun b => m (c, b)) (Proc.devRef .tc main_v6) = _
  after_results; rfl
theorem V_v7 (c : Dev nD) : (V m c main_v7 : S32x1.Idx → EReal) = shapeCast S32x1 (m ((c : Thread nD τ).loc main_arg9)) Gen.shapeCasts_S1x32_S32x1 := by
  show StableHlo.after hostOps0 (fun b => m (c, b)) (Proc.devRef .tc main_v7) = _
  after_results; rfl
theorem V_v8 (c : Dev nD) : (V m c main_v8 : S1x1.Idx → EReal) = shapeCast S1x1 (m ((c : Thread nD τ).loc main_arg10)) Gen.shapeCasts_S1_S1x1 := by
  show StableHlo.after hostOps0 (fun b => m (c, b)) (Proc.devRef .tc main_v8) = _
  after_results; rfl

/-! ## The index maps, decided over the grid -/

/-- The input row's and the output row's blocks move with the point: block `t` is columns `16384·t …`. -/
theorem idx_moving : ∀ t : Fin cfg0.N, win0_0.index t (0 : Fin 2) = 0 ∧ win0_0.index t (1 : Fin 2) = t.val
    ∧ win0_11.index t (0 : Fin 2) = 0 ∧ win0_11.index t (1 : Fin 2) = t.val :=
  (by decide +kernel : ∀ t : Fin grid0.N, _)

/-- The parameter windows' blocks stay at the origin. -/
theorem idx_resident : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The windows' blocks -/

/-- Window 1 holds its whole array at every point. -/
theorem iblk1 (c : Dev nD) (t : Fin cfg0.N) : (iblk m c 1 t : S32x1.Idx → EReal) = V m c main_arg1 := by
  funext y
  show V m c main_arg1 (((cfg0.win 1).blk t).view.emb y) = V m c main_arg1 y
  refine congrArg (V m c main_arg1) ?_
  funext a; apply Fin.ext
  obtain ⟨⟨e0, e1⟩, -, -, -, -, -, -, -, -, -⟩ := idx_resident t
  match a with
  | ⟨0, _⟩ => show win0_1.index t (0 : Fin 2) * 32 + 1 * (y 0).val = (y 0).val; omega
  | ⟨1, _⟩ => show win0_1.index t (1 : Fin 2) * 1 + 1 * (y 1).val = (y 1).val; omega
/-- Window 2 holds its whole array at every point. -/
theorem iblk2 (c : Dev nD) (t : Fin cfg0.N) : (iblk m c 2 t : S32x1.Idx → EReal) = V m c main_v1 := by
  funext y
  show V m c main_v1 (((cfg0.win 2).blk t).view.emb y) = V m c main_v1 y
  refine congrArg (V m c main_v1) ?_
  funext a; apply Fin.ext
  obtain ⟨-, ⟨e0, e1⟩, -, -, -, -, -, -, -, -⟩ := idx_resident t
  match a with
  | ⟨0, _⟩ => show win0_2.index t (0 : Fin 2) * 32 + 1 * (y 0).val = (y 0).val; omega
  | ⟨1, _⟩ => show win0_2.index t (1 : Fin 2) * 1 + 1 * (y 1).val = (y 1).val; omega
/-- Window 3 holds its whole array at every point. -/
theorem iblk3 (c : Dev nD) (t : Fin cfg0.N) : (iblk m c 3 t : S32x1.Idx → EReal) = V m c main_v2 := by
  funext y
  show V m c main_v2 (((cfg0.win 3).blk t).view.emb y) = V m c main_v2 y
  refine congrArg (V m c main_v2) ?_
  funext a; apply Fin.ext
  obtain ⟨-, -, ⟨e0, e1⟩, -, -, -, -, -, -, -⟩ := idx_resident t
  match a with
  | ⟨0, _⟩ => show win0_3.index t (0 : Fin 2) * 32 + 1 * (y 0).val = (y 0).val; omega
  | ⟨1, _⟩ => show win0_3.index t (1 : Fin 2) * 1 + 1 * (y 1).val = (y 1).val; omega
/-- Window 4 holds its whole array at every point. -/
theorem iblk4 (c : Dev nD) (t : Fin cfg0.N) : (iblk m c 4 t : S32x1.Idx → EReal) = V m c main_v3 := by
  funext y
  show V m c main_v3 (((cfg0.win 4).blk t).view.emb y) = V m c main_v3 y
  refine congrArg (V m c main_v3) ?_
  funext a; apply Fin.ext
  obtain ⟨-, -, -, ⟨e0, e1⟩, -, -, -, -, -, -⟩ := idx_resident t
  match a with
  | ⟨0, _⟩ => show win0_4.index t (0 : Fin 2) * 32 + 1 * (y 0).val = (y 0).val; omega
  | ⟨1, _⟩ => show win0_4.index t (1 : Fin 2) * 1 + 1 * (y 1).val = (y 1).val; omega
/-- Window 5 holds its whole array at every point. -/
theorem iblk5 (c : Dev nD) (t : Fin cfg0.N) : (iblk m c 5 t : S32x32.Idx → EReal) = V m c main_arg5 := by
  funext y
  show V m c main_arg5 (((cfg0.win 5).blk t).view.emb y) = V m c main_arg5 y
  refine congrArg (V m c main_arg5) ?_
  funext a; apply Fin.ext
  obtain ⟨-, -, -, -, ⟨e0, e1⟩, -, -, -, -, -⟩ := idx_resident t
  match a with
  | ⟨0, _⟩ => show win0_5.index t (0 : Fin 2) * 32 + 1 * (y 0).val = (y 0).val; omega
  | ⟨1, _⟩ => show win0_5.index t (1 : Fin 2) * 32 + 1 * (y 1).val = (y 1).val; omega
/-- Window 6 holds its whole array at every point. -/
theorem iblk6 (c : Dev nD) (t : Fin cfg0.N) : (iblk m c 6 t : S32x1.Idx → EReal) = V m c main_v4 := by
  funext y
  show V m c main_v4 (((cfg0.win 6).blk t).view.emb y) = V m c main_v4 y
  refine congrArg (V m c main_v4) ?_
  funext a; apply Fin.ext
  obtain ⟨-, -, -, -, -, ⟨e0, e1⟩, -, -, -, -⟩ := idx_resident t
  match a with
  | ⟨0, _⟩ => show win0_6.index t (0 : Fin 2) * 32 + 1 * (y 0).val = (y 0).val; omega
  | ⟨1, _⟩ => show win0_6.index t (1 : Fin 2) * 1 + 1 * (y 1).val = (y 1).val; omega
/-- Window 7 holds its whole array at every point. -/
theorem iblk7 (c : Dev nD) (t : Fin cfg0.N) : (iblk m c 7 t : S32x1.Idx → EReal) = V m c main_v5 := by
  funext y
  show V m c main_v5 (((cfg0.win 7).blk t).view.emb y) = V m c main_v5 y
  refine congrArg (V m c main_v5) ?_
  funext a; apply Fin.ext
  obtain ⟨-, -, -, -, -, -, ⟨e0, e1⟩, -, -, -⟩ := idx_resident t
  match a with
  | ⟨0, _⟩ => show win0_7.index t (0 : Fin 2) * 32 + 1 * (y 0).val = (y 0).val; omega
  | ⟨1, _⟩ => show win0_7.index t (1 : Fin 2) * 1 + 1 * (y 1).val = (y 1).val; omega
/-- Window 8 holds its whole array at every point. -/
theorem iblk8 (c : Dev nD) (t : Fin cfg0.N) : (iblk m c 8 t : S32x1.Idx → EReal) = V m c main_v6 := by
  funext y
  show V m c main_v6 (((cfg0.win 8).blk t).view.emb y) = V m c main_v6 y
  refine congrArg (V m c main_v6) ?_
  funext a; apply Fin.ext
  obtain ⟨-, -, -, -, -, -, -, ⟨e0, e1⟩, -, -⟩ := idx_resident t
  match a with
  | ⟨0, _⟩ => show win0_8.index t (0 : Fin 2) * 32 + 1 * (y 0).val = (y 0).val; omega
  | ⟨1, _⟩ => show win0_8.index t (1 : Fin 2) * 1 + 1 * (y 1).val = (y 1).val; omega
/-- Window 9 holds its whole array at every point. -/
theorem iblk9 (c : Dev nD) (t : Fin cfg0.N) : (iblk m c 9 t : S32x1.Idx → EReal) = V m c main_v7 := by
  funext y
  show V m c main_v7 (((cfg0.win 9).blk t).view.emb y) = V m c main_v7 y
  refine congrArg (V m c main_v7) ?_
  funext a; apply Fin.ext
  obtain ⟨-, -, -, -, -, -, -, -, ⟨e0, e1⟩, -⟩ := idx_resident t
  match a with
  | ⟨0, _⟩ => show win0_9.index t (0 : Fin 2) * 32 + 1 * (y 0).val = (y 0).val; omega
  | ⟨1, _⟩ => show win0_9.index t (1 : Fin 2) * 1 + 1 * (y 1).val = (y 1).val; omega
/-- Window 10 holds its whole array at every point. -/
theorem iblk10 (c : Dev nD) (t : Fin cfg0.N) : (iblk m c 10 t : S1x1.Idx → EReal) = V m c main_v8 := by
  funext y
  show V m c main_v8 (((cfg0.win 10).blk t).view.emb y) = V m c main_v8 y
  refine congrArg (V m c main_v8) ?_
  funext a; apply Fin.ext
  obtain ⟨-, -, -, -, -, -, -, -, -, ⟨e0, e1⟩⟩ := idx_resident t
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- The input row's block at point `t`, read where the output row's block sits. -/
theorem iblk0_apply (c : Dev nD) (t : Fin cfg0.N) (q : Fin 16384) :
    (iblk m c 0 t : S1x16384.Idx → EReal) (ix2 (0 : Fin 1) q)
      = V m c main_v0 (((cfg0.win 11).blk t).view.emb (ix2 (0 : Fin 1) q)) := by
  show V m c main_v0 (((cfg0.win 0).blk t).view.emb (ix2 (0 : Fin 1) q)) = _
  refine congrArg (V m c main_v0) ?_
  funext a; apply Fin.ext
  obtain ⟨e0, e1, e2, e3⟩ := idx_moving t
  match a with
  | ⟨0, _⟩ => show win0_0.index t (0 : Fin 2) * 1 + 1 * ((ix2 (0 : Fin 1) q : S1x16384.Idx) 0).val = win0_11.index t (0 : Fin 2) * 1 + 1 * ((ix2 (0 : Fin 1) q : S1x16384.Idx) 0).val; omega
  | ⟨1, _⟩ => show win0_0.index t (1 : Fin 2) * 16384 + 1 * ((ix2 (0 : Fin 1) q : S1x16384.Idx) 1).val = win0_11.index t (1 : Fin 2) * 16384 + 1 * ((ix2 (0 : Fin 1) q : S1x16384.Idx) 1).val; omega

/-! ## What the output row ends holding -/

/-- The network's output as a function of the input number, with the parameters as the region finds them. -/
def Fp (c : Dev nD) : EReal → EReal := fun x =>
  mlpOut c32 eps x (colOf (V m c main_arg1 : S32x1.Idx → EReal) 0) (colOf (V m c main_v1 : S32x1.Idx → EReal) 0)
    (colOf (V m c main_v2 : S32x1.Idx → EReal) 0) (colOf (V m c main_v3 : S32x1.Idx → EReal) 0)
    (fun p k => (V m c main_arg5 : S32x32.Idx → EReal) (ix2 p k)) (colOf (V m c main_v4 : S32x1.Idx → EReal) 0)
    (colOf (V m c main_v5 : S32x1.Idx → EReal) 0) (colOf (V m c main_v6 : S32x1.Idx → EReal) 0)
    (colOf (V m c main_v7 : S32x1.Idx → EReal) 0) ((V m c main_v8 : S1x1.Idx → EReal) (ix2 (0 : Fin 1) (0 : Fin 1)))

/-- The output row: entry `i` is the network's output on entry `i` of the input row. -/
def Grow (c : Dev nD) : S1x2097152.Idx → EReal := fun i => Fp m c ((V m c main_v0 : S1x2097152.Idx → EReal) i)

/-- What point `t` writes back is block `t` of the output row. -/
theorem flushed_eq (c : Dev nD) (t : Fin cfg0.N) :
    (dats m 0 c).flushed 11 t = ((cfg0.win 11).blk t).view.read (Elt Ideal) (Grow m c) := by
  show (cfg0.win 11).cut (grid0.coords t) ((dats m 0 c).after 11 t) = _
  rw [after0_11]
  unfold out0_11
  rw [View.canon_unit_zero hz]
  simp only [View.ld_unit_zero (S := S1x16384) hz, View.ld_unit_zero (S := S32x1) hz, View.ld_unit_zero (S := S32x32) hz,
    View.ld_unit_zero (S := S1x1) hz]
  funext y
  obtain ⟨p, q, rfl⟩ : ∃ (p : Fin 1) (q : Fin 16384), y = ix2 p q := ⟨y 0, y 1, eq_ix2 y⟩
  obtain rfl : p = 0 := Subsingleton.elim _ _
  show k0_pay2 (F := Ideal) (k0_pay1 (F := Ideal) (iblk m c 0 t) (iblk m c 1 t) (iblk m c 2 t) (iblk m c 3 t) (iblk m c 4 t) (iblk m c 5 t))
        (iblk m c 6 t) (iblk m c 7 t) (iblk m c 8 t) (iblk m c 9 t) (iblk m c 10 t) (ix2 (0 : Fin 1) q)
      = Fp m c (V m c main_v0 (((cfg0.win 11).blk t).view.emb (ix2 (0 : Fin 1) q)))
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) q).trans ?_
  rw [iblk0_apply m c t q, iblk1 m c t, iblk2 m c t, iblk3 m c t, iblk4 m c t, iblk5 m c t, iblk6 m c t, iblk7 m c t, iblk8 m c t, iblk9 m c t, iblk10 m c t]
  rfl

/-- An index of the output row is in point `t`'s block iff each coordinate is in the block's range. -/
theorem mem_blk (t : Fin cfg0.N) (i : S1x2097152.Idx) :
    i ∈ ((cfg0.win 11).blk t).view.set ↔ ∀ a : Fin 2, win0_11.index t a * S1x16384.size a ≤ (i a).val
      ∧ (i a).val < win0_11.index t a * S1x16384.size a + S1x16384.size a := by
  show i ∈ ((View.whole main_v9).slice (win0_11.rect t)).set ↔ _
  rw [View.set_slice_whole, Rect.mem_set_unit]
  exact Iff.rfl

/-- The blocks tile the row: column `n` is in the block of point `n / 16384`. -/
theorem cover (i : S1x2097152.Idx) : ∃ t : Fin cfg0.N, (cfg0.win 11).flush t = true ∧ i ∈ ((cfg0.win 11).blk t).view.set := by
  have h0 : (i 0).val < 1 := (i 0).isLt
  have h1 : (i 1).val < 2097152 := (i 1).isLt
  have hN : cfg0.N = 128 := N_0
  obtain ⟨t, ht⟩ : ∃ t : Fin cfg0.N, t.val = (i 1).val / 16384 := ⟨⟨(i 1).val / 16384, by rw [hN]; omega⟩, rfl⟩
  obtain ⟨-, -, e2, e3⟩ := idx_moving t
  refine ⟨t, flush0_11 t, ?_⟩
  rw [mem_blk]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 16384 ≤ (i 1).val ∧ (i 1).val < win0_11.index t (1 : Fin 2) * 16384 + 16384; omega

/-- The output row after the run. -/
theorem final (c : Dev nD) : (dats m 0 c).arrAt 11 cfg0.N = Grow m c :=
  (dats m 0 c).arrAt_eq_of_cover 11 (Grow m c) (fun t _ => flushed_eq m c t) (cover)

/-! ## The parameters the region finds are the argument arrays' -/

theorem par_w1 (c : Dev nD) : colOf (V m c main_arg1 : S32x1.Idx → EReal) 0 = fun j => aW1 m c (ix2 j (0 : Fin 1)) := by
  rw [V_main_arg1]; rfl
theorem par_w2 (c : Dev nD) : (fun p k => (V m c main_arg5 : S32x32.Idx → EReal) (ix2 p k)) = fun p k => aW2 m c (ix2 p k) := by
  rw [V_main_arg5]
theorem par_v1 (c : Dev nD) : colOf (V m c main_v1 : S32x1.Idx → EReal) 0 = vec (aB1 m c) := by
  funext j
  show (V m c main_v1 : S32x1.Idx → EReal) (ix2 j (0 : Fin 1)) = _
  rw [V_v1]
  exact Cert.ChebRows.shapeCast_a_a1_apply _ _ j 0
theorem par_v2 (c : Dev nD) : colOf (V m c main_v2 : S32x1.Idx → EReal) 0 = vec (aG1 m c) := by
  funext j
  show (V m c main_v2 : S32x1.Idx → EReal) (ix2 j (0 : Fin 1)) = _
  rw [V_v2]
  exact Cert.ChebRows.shapeCast_a_a1_apply _ _ j 0
theorem par_v3 (c : Dev nD) : colOf (V m c main_v3 : S32x1.Idx → EReal) 0 = vec (aBe1 m c) := by
  funext j
  show (V m c main_v3 : S32x1.Idx → EReal) (ix2 j (0 : Fin 1)) = _
  rw [V_v3]
  exact Cert.ChebRows.shapeCast_a_a1_apply _ _ j 0
theorem par_v4 (c : Dev nD) : colOf (V m c main_v4 : S32x1.Idx → EReal) 0 = vec (aB2 m c) := by
  funext j
  show (V m c main_v4 : S32x1.Idx → EReal) (ix2 j (0 : Fin 1)) = _
  rw [V_v4]
  exact Cert.ChebRows.shapeCast_a_a1_apply _ _ j 0
theorem par_v5 (c : Dev nD) : colOf (V m c main_v5 : S32x1.Idx → EReal) 0 = vec (aG2 m c) := by
  funext j
  show (V m c main_v5 : S32x1.Idx → EReal) (ix2 j (0 : Fin 1)) = _
  rw [V_v5]
  exact Cert.ChebRows.shapeCast_a_a1_apply _ _ j 0
theorem par_v6 (c : Dev nD) : colOf (V m c main_v6 : S32x1.Idx → EReal) 0 = vec (aBe2 m c) := by
  funext j
  show (V m c main_v6 : S32x1.Idx → EReal) (ix2 j (0 : Fin 1)) = _
  rw [V_v6]
  exact Cert.ChebRows.shapeCast_a_a1_apply _ _ j 0
/-- A `[1, a]` row viewed as an `[a, 1]` column reads, at `(j, 0)`, the row at `(0, j)`: both have row-major position `j`. -/
theorem shapeCast_1a_a1_apply {α : Type} {a : ℕ} (x : (⟨2, ![1, a]⟩ : Shape).Idx → α)
    (h : (⟨2, ![1, a]⟩ : Shape).ShapeCasts ⟨2, ![a, 1]⟩) (j : Fin a) :
    shapeCast ⟨2, ![a, 1]⟩ x h (ix2 j (0 : Fin 1)) = x (ix2 (0 : Fin 1) j) :=
  shapeCast_apply x h _ _ (by
    rw [Shape.rowMajor_val_two, Shape.rowMajor_val_two]
    show 0 * a + j.val = j.val * 1 + 0
    omega)

/-- The last weight: the [1, 32] row viewed as a [32, 1] column. -/
theorem par_v7 (c : Dev nD) : colOf (V m c main_v7 : S32x1.Idx → EReal) 0 = fun j => aW3 m c (ix2 (0 : Fin 1) j) := by
  funext j
  show (V m c main_v7 : S32x1.Idx → EReal) (ix2 j (0 : Fin 1)) = _
  rw [V_v7]
  exact shapeCast_1a_a1_apply (aW3 m c) Gen.shapeCasts_S1x32_S32x1 j
theorem par_v8 (c : Dev nD) : (V m c main_v8 : S1x1.Idx → EReal) (ix2 (0 : Fin 1) (0 : Fin 1)) = aB3 m c (ix1 (0 : Fin 1)) := by
  rw [V_v8]
  exact shapeCast_a_1a_apply _ _ 0 0

/-- The result column as one function of the argument arrays. -/
abbrev Gm (c : Dev nD) : S2097152x1.Idx → EReal :=
  G (aX m c) (aW1 m c) (aB1 m c) (aG1 m c) (aBe1 m c) (aW2 m c) (aB2 m c) (aG2 m c) (aBe2 m c) (aW3 m c) (aB3 m c)

/-- The output row is the result column viewed as a row. -/
theorem Grow_eq (c : Dev nD) : Grow m c = shapeCast S1x2097152 (Gm m c) Gen.shapeCasts_S2097152x1_S1x2097152 := by
  funext i
  unfold Grow Fp
  rw [par_w1, par_w2, par_v1, par_v2, par_v3, par_v4, par_v5, par_v6, par_v7, par_v8, V_v0]
  rfl

/-! ## The host line after the region, and the run -/

/-- The result: the output row viewed as a column is `G` of the argument arrays. -/
theorem tail_eq (c : Dev nD) : Pipeline.afterTail₀ cfgs (dats m) 0 (V0 m) [hostOps1] c main_v10 = Gm m c := by
  have e : Pipeline.withArrays (cfgs 0).spec c (V0 m c) (fun w => (dats m 0 c).arrAt w (cfgs 0).N) (Proc.devRef .tc main_v9)
      = shapeCast S1x2097152 (Gm m c) Gen.shapeCasts_S2097152x1_S1x2097152 :=
    ((Pipeline.withArrays_arr spec0 launch0.win.arr_inj c _ _ 11).trans (final m c)).trans (Grow_eq m c)
  unfold Pipeline.afterTail₀
  show StableHlo.after hostOps1 _ (Proc.devRef .tc main_v10) = _
  after_results
  rw [e]
  exact shapeCast_shapeCast (Gm m c) Gen.shapeCasts_S2097152x1_S1x2097152 Gen.shapeCasts_S1x2097152_S2097152x1

/-- The kernel's run, read: the result at `G` of the argument arrays, the arguments unchanged. -/
theorem run : θ_run defs (onTc (τ := τ) (main (F := Ideal))) ⟨m, fun _ => 0, ρ⟩ (fun r => ∀ c : Dev nD,
      r.2.mem ((c.tc : Thread nD τ).loc main_v10) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v10 (Pipeline.mem_restRefs_of main_v10 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.Hand

end
-- ==== Proof.RefValue.lean ====
/-
  The reference's result, read row by row.

  The reference keeps one hidden vector per ROW: a [2097152, 32] array whose row `p` is the hidden vector of the input
  number `x[p, 0]`. Each layer is a matrix product with the TRANSPOSED weight (rows times columns) plus a bias vector
  broadcast down the rows; each normalisation takes its sums along the rows. Read at entry `(p, 0)`, the result is the
  network's output `mlpOut` on `x[p, 0]`: the only differences from the kernel's spelling are the order of the two
  factors in each product (the weight on the right here, on the left there) and a one-term sum for the first layer.
-/
import proofs.«178799_j71047349011134_2_alg».proof.Proof.Gen.ReferenceIdeal.Run
import proofs.«178799_j71047349011134_2_alg».proof.Proof.LibNormAct
import proofs.«178799_j71047349011134_2_alg».proof.Proof.LibRowExtras
import proofs.«178799_j71047349011134_2_alg».proof.Proof.MlpSpec

noncomputable section

namespace Cert.ReferenceIdeal.RefValue

open Cert.ReferenceIdeal Cert.ReferenceIdeal.Value Idealize.ShloMosaic Idealize.ShloMosaic.ValueIdx Idealize.ShloMosaic.TcCoe
open Cert.RowLayers Cert.NormAct Cert.Mlp

/-! ## A dense layer whose weight is given transposed -/

/-- A dense layer through the transpose of `w`: entry `j` is `(∑ k, w[j, k] · h k) + b j`. -/
theorem dense_transpose {K J : ℕ} (h : Fin K → EReal) (w : (⟨2, ![J, K]⟩ : Shape).Idx → EReal)
    (ht : (⟨2, ![J, K]⟩ : Shape).Transposes [1, 0] ⟨2, ![K, J]⟩) (b : Fin J → EReal) :
    dense h (transpose ⟨2, ![K, J]⟩ [1, 0] w ht) b = fun j => (∑ k : Fin K, w (ix2 j k) * h k) + b j := by
  funext j
  unfold dense
  refine congrArg (· + b j) (Finset.sum_congr rfl fun k _ => ?_)
  rw [transpose_ix2_apply, mul_comm]

/-! ## The side conditions of the reference's operations -/

theorem rowWits : RowWits 2097152 32 :=
  ⟨Gen.reducesTo_S2097152x32_S2097152_d1, Gen.h_S_, Gen.bcast_S2097152_S2097152x1_0, Gen.bcast_S_S2097152x1,
    Gen.bcast_S2097152x1_S2097152x32_0_1, Gen.bcast_S32_S1x32_1, Gen.bcast_S1x32_S2097152x32_0_1, Gen.bcast_S_S2097152x32⟩

theorem rowReduces : (⟨2, ![2097152, 32]⟩ : Shape).Reduces [1] (⟨1, ![2097152]⟩ : Shape) := by decide

theorem dot1RC : RowsTimesCols (a := 2097152) (K := 1) (b := 32) dot_S2097152x1_S1x32_S2097152x32_1_0_0_1_n_n :=
  ⟨rfl, rfl, fun _ _ => rfl, fun _ _ => rfl, fun _ _ => rfl, fun _ _ => rfl⟩
theorem dot2RC : RowsTimesCols (a := 2097152) (K := 32) (b := 32) dot_S2097152x32_S32x32_S2097152x32_1_0_0_1_n_n :=
  ⟨rfl, rfl, fun _ _ => rfl, fun _ _ => rfl, fun _ _ => rfl, fun _ _ => rfl⟩
theorem dot3RC : RowsTimesCols (a := 2097152) (K := 32) (b := 1) dot_S2097152x32_S32x1_S2097152x1_1_0_0_1_n_n :=
  ⟨rfl, rfl, fun _ _ => rfl, fun _ _ => rfl, fun _ _ => rfl, fun _ _ => rfl⟩

/-! ## The arguments, as arrays of extended reals -/

variable (V0 : Valuation τ sig (Elt Ideal))

abbrev aX : FVec Ideal S2097152x1 .f32 := V0 (Proc.devRef .tc main_arg0)
abbrev aW1 : FVec Ideal S32x1 .f32 := V0 (Proc.devRef .tc main_arg1)
abbrev aB1 : FVec Ideal S32 .f32 := V0 (Proc.devRef .tc main_arg2)
abbrev aG1 : FVec Ideal S32 .f32 := V0 (Proc.devRef .tc main_arg3)
abbrev aBe1 : FVec Ideal S32 .f32 := V0 (Proc.devRef .tc main_arg4)
abbrev aW2 : FVec Ideal S32x32 .f32 := V0 (Proc.devRef .tc main_arg5)
abbrev aB2 : FVec Ideal S32 .f32 := V0 (Proc.devRef .tc main_arg6)
abbrev aG2 : FVec Ideal S32 .f32 := V0 (Proc.devRef .tc main_arg7)
abbrev aBe2 : FVec Ideal S32 .f32 := V0 (Proc.devRef .tc main_arg8)
abbrev aW3 : FVec Ideal S1x32 .f32 := V0 (Proc.devRef .tc main_arg9)
abbrev aB3 : FVec Ideal S1 .f32 := V0 (Proc.devRef .tc main_arg10)

/-! ## The stages -/

/-- The first layer, before its normalisation, is a dense layer through the transposed first weight. -/
theorem v4_eq : res_main_v4 V0
    = addf (Host.dotGeneral (F := Ideal) dot_S2097152x1_S1x32_S2097152x32_1_0_0_1_n_n none (aX V0)
        (transpose S1x32 [1, 0] (aW1 V0) Gen.transposes_S32x1_S1x32_1_0))
      (broadcastInDim S2097152x32 ![0, 1] Gen.bcast_S1x32_S2097152x32_0_1 (broadcastInDim S1x32 ![1] Gen.bcast_S32_S1x32_1 (aB1 V0))) := rfl

/-- Row `p` of it: `i ↦ W1[i, 0] · x[p, 0] + b1 i`. -/
theorem row_v4 (p : Fin 2097152) :
    rowOf (res_main_v4 V0) p = fun i => aW1 V0 (ix2 i (0 : Fin 1)) * aX V0 (ix2 p (0 : Fin 1)) + vec (aB1 V0) i := by
  rw [v4_eq, rowOf_dense_host dot1RC, dense_transpose]
  funext i
  refine congrArg (· + aB1 V0 (ix1 i)) ?_
  exact Fin.sum_univ_one _

/-- The first normalisation, in the row spelling. -/
theorem v28_eq : res_main_v28 V0 = normedRows rowWits (res_main_v4 V0) (aG1 V0) (aBe1 V0) 0x42000000#32 0x3727C5AC#32 := rfl

/-- The second layer, before its normalisation: a dense layer on the activated first normalisation. -/
theorem v40_eq : res_main_v40 V0
    = addf (Host.dotGeneral (F := Ideal) dot_S2097152x32_S32x32_S2097152x32_1_0_0_1_n_n none
        (siluRows rowWits (res_main_v28 V0) 0x3F800000#32) (transpose S32x32 [1, 0] (aW2 V0) Gen.transposes_S32x32_S32x32_1_0))
      (broadcastInDim S2097152x32 ![0, 1] Gen.bcast_S1x32_S2097152x32_0_1 (broadcastInDim S1x32 ![1] Gen.bcast_S32_S1x32_1 (aB2 V0))) := rfl

/-- Row `p` of the activated first normalisation. -/
theorem row_h1 (p : Fin 2097152) :
    rowOf (siluRows rowWits (res_main_v28 V0) 0x3F800000#32) p
      = normAct c32 eps (fun i => aW1 V0 (ix2 i (0 : Fin 1)) * aX V0 (ix2 p (0 : Fin 1)) + vec (aB1 V0) i) (vec (aG1 V0)) (vec (aBe1 V0)) := by
  rw [v28_eq, rowOf_siluRows_normedRows rowWits rowReduces _ _ _ _ _ _ ofBits_one_f32, row_v4]

/-- Row `p` of the second layer before its normalisation. -/
theorem row_v40 (p : Fin 2097152) :
    rowOf (res_main_v40 V0) p = fun i => (∑ k : Fin 32, aW2 V0 (ix2 i k)
        * normAct c32 eps (fun i' => aW1 V0 (ix2 i' (0 : Fin 1)) * aX V0 (ix2 p (0 : Fin 1)) + vec (aB1 V0) i') (vec (aG1 V0)) (vec (aBe1 V0)) k)
      + vec (aB2 V0) i := by
  rw [v40_eq, rowOf_dense_host dot2RC, dense_transpose, row_h1]
  rfl

/-- The second normalisation, in the row spelling. -/
theorem v64_eq : res_main_v64 V0 = normedRows rowWits (res_main_v40 V0) (aG2 V0) (aBe2 V0) 0x42000000#32 0x3727C5AC#32 := rfl

/-- Row `p` of the activated second normalisation. -/
theorem row_h2 (p : Fin 2097152) :
    rowOf (siluRows rowWits (res_main_v64 V0) 0x3F800000#32) p
      = normAct c32 eps (fun i => (∑ k : Fin 32, aW2 V0 (ix2 i k)
          * normAct c32 eps (fun i' => aW1 V0 (ix2 i' (0 : Fin 1)) * aX V0 (ix2 p (0 : Fin 1)) + vec (aB1 V0) i') (vec (aG1 V0)) (vec (aBe1 V0)) k)
        + vec (aB2 V0) i) (vec (aG2 V0)) (vec (aBe2 V0)) := by
  rw [v64_eq, rowOf_siluRows_normedRows rowWits rowReduces _ _ _ _ _ _ ofBits_one_f32, row_v40]

/-- The reference's result term: the last dense layer on the activated second normalisation. -/
def result : FVec Ideal S2097152x1 .f32 :=
  addf (Host.dotGeneral (F := Ideal) dot_S2097152x32_S32x1_S2097152x1_1_0_0_1_n_n none
      (siluRows rowWits (res_main_v64 V0) 0x3F800000#32) (transpose S32x1 [1, 0] (aW3 V0) Gen.transposes_S1x32_S32x1_1_0))
    (broadcastInDim S2097152x1 ![0, 1] Gen.bcast_S1x1_S2097152x1_0_1 (broadcastInDim S1x1 ![1] Gen.bcast_S1_S1x1_1 (aB3 V0)))

/-- The result is the network's output on every row's input number. -/
theorem result_eq_G :
    result V0 = G (aX V0) (aW1 V0) (aB1 V0) (aG1 V0) (aBe1 V0) (aW2 V0) (aB2 V0) (aG2 V0) (aBe2 V0) (aW3 V0) (aB3 V0) := by
  funext i
  obtain ⟨p, q, rfl⟩ : ∃ (p : Fin 2097152) (q : Fin 1), i = ix2 p q := ⟨i 0, i 1, eq_ix2 i⟩
  obtain rfl : q = 0 := Subsingleton.elim _ _
  have hrow := congrFun (rowOf_dense_host dot3RC none (siluRows rowWits (res_main_v64 V0) 0x3F800000#32)
    (transpose S32x1 [1, 0] (aW3 V0) Gen.transposes_S1x32_S32x1_1_0) (aB3 V0) Gen.bcast_S1_S1x1_1 Gen.bcast_S1x1_S2097152x1_0_1 p) (0 : Fin 1)
  refine hrow.trans ?_
  rw [dense_transpose, row_h2]
  rfl

end Cert.ReferenceIdeal.RefValue

end
-- ==== Proof.lean ====
/-
  A point-wise network with one input number per row — three affine layers, the first two followed by a normalisation
  over the 32 hidden entries (mean, variance plus a small offset, reciprocal square root, scale, shift) and the activation
  y · σ(y) — computed two ways.

  The kernel views the input column [2097152, 1] as a row, cuts it into 128 blocks of 16384 numbers and keeps the hidden
  state transposed, one hidden vector per COLUMN of a [32, 16384] array: the first layer is an outer product, the second
  a matrix product W2 · h, the last a sum down each column; the output row is viewed as a column again. The reference
  keeps one hidden vector per ROW of a [2097152, 32] array and multiplies by the transposed weights, x · W1ᵀ, h · W2ᵀ,
  h · W3ᵀ. Over the extended reals a change of float format is the identity, the kernel's one operation σ is by
  definition 1 / (1 + e^(−y)) as the reference spells it, both divide by the same word of 32.0 and add the same word of
  the offset, and a sum over the 32 hidden entries is the same sum along either axis. What differs is only the order of
  the two factors in each product and a one-term sum in the reference's first layer; multiplication of extended reals
  commutes, so entry by entry both results are ONE function `G` of the argument arrays. No step needs the inputs to be
  finite, and the precondition is never opened.

  The three frames are the generated ones (the reference's is its generated run with the result dropped); the
  idealization rewrote nothing, so `preserves` is trivial.
-/
import proofs.«178799_j71047349011134_2_alg».proof.Defs
import proofs.«178799_j71047349011134_2_alg».proof.Proof.Gen.Kernel
import proofs.«178799_j71047349011134_2_alg».proof.Proof.Gen.Kernel.Skeleton
import proofs.«178799_j71047349011134_2_alg».proof.Proof.Gen.Kernel.Launch
import proofs.«178799_j71047349011134_2_alg».proof.Proof.Gen.Kernel.Points
import proofs.«178799_j71047349011134_2_alg».proof.Proof.Gen.Kernel.Frame
import proofs.«178799_j71047349011134_2_alg».proof.Proof.Gen.KernelIdeal
import proofs.«178799_j71047349011134_2_alg».proof.Proof.Gen.KernelIdeal.Skeleton
import proofs.«178799_j71047349011134_2_alg».proof.Proof.Gen.KernelIdeal.Launch
import proofs.«178799_j71047349011134_2_alg».proof.Proof.Gen.KernelIdeal.Points
import proofs.«178799_j71047349011134_2_alg».proof.Proof.Gen.KernelIdeal.Frame
import proofs.«178799_j71047349011134_2_alg».proof.Proof.Gen.ReferenceIdeal
import proofs.«178799_j71047349011134_2_alg».proof.Proof.Gen.ReferenceIdeal.Run
import proofs.«178799_j71047349011134_2_alg».proof.Proof.Gen.Pre_finite_inputs
import Idealize.ShloMosaic.Adequacy
import Idealize.ShloMosaic.Init
import proofs.«178799_j71047349011134_2_alg».proof.Proof.KernelValue
import proofs.«178799_j71047349011134_2_alg».proof.Proof.RefValue

noncomputable section

namespace Cert.Proof

open Idealize.ShloMosaic Idealize.ShloMosaic.TcCoe Idealize.SL.Sem

/-- At the ideal instance the kernel's result column ends at `G` of its argument arrays and the reference's result
    term is `G` of its own; the arguments agree, so the two results are equal entry by entry. -/
theorem algebraic : Cert.algebraic_KernelIdeal_ReferenceIdeal := by
  intro m ρ m' ρ' _ hagree
  refine ⟨fun c => Cert.KernelIdeal.Hand.Gm m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.RefValue.result (StableHlo.launchContents m' c) = _
  rw [Cert.ReferenceIdeal.RefValue.result_eq_G]
  obtain ⟨h0, h1, h2, h3, h4, h5, h6, h7, h8, h9, h10⟩ := hagree c
  have e0 : Cert.ReferenceIdeal.RefValue.aX (StableHlo.launchContents m' c) = Cert.KernelIdeal.Hand.aX m c := h0
  have e1 : Cert.ReferenceIdeal.RefValue.aW1 (StableHlo.launchContents m' c) = Cert.KernelIdeal.Hand.aW1 m c := h1
  have e2 : Cert.ReferenceIdeal.RefValue.aB1 (StableHlo.launchContents m' c) = Cert.KernelIdeal.Hand.aB1 m c := h2
  have e3 : Cert.ReferenceIdeal.RefValue.aG1 (StableHlo.launchContents m' c) = Cert.KernelIdeal.Hand.aG1 m c := h3
  have e4 : Cert.ReferenceIdeal.RefValue.aBe1 (StableHlo.launchContents m' c) = Cert.KernelIdeal.Hand.aBe1 m c := h4
  have e5 : Cert.ReferenceIdeal.RefValue.aW2 (StableHlo.launchContents m' c) = Cert.KernelIdeal.Hand.aW2 m c := h5
  have e6 : Cert.ReferenceIdeal.RefValue.aB2 (StableHlo.launchContents m' c) = Cert.KernelIdeal.Hand.aB2 m c := h6
  have e7 : Cert.ReferenceIdeal.RefValue.aG2 (StableHlo.launchContents m' c) = Cert.KernelIdeal.Hand.aG2 m c := h7
  have e8 : Cert.ReferenceIdeal.RefValue.aBe2 (StableHlo.launchContents m' c) = Cert.KernelIdeal.Hand.aBe2 m c := h8
  have e9 : Cert.ReferenceIdeal.RefValue.aW3 (StableHlo.launchContents m' c) = Cert.KernelIdeal.Hand.aW3 m c := h9
  have e10 : Cert.ReferenceIdeal.RefValue.aB3 (StableHlo.launchContents m' c) = Cert.KernelIdeal.Hand.aB3 m c := h10
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
